-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v81)) (v2 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_v101) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S2x100000 : Shape := ⟨2, ![2, 100000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S64x128 .f32) (main_arg15 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x128 .f32 := Host.absf main_arg14
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64x128 .f32) (main_arg10 : FVec F S64x128 .f32) (main_arg11 : FVec F S64 .f32) (main_arg12 : FVec F S128x64 .f32) (main_arg13 : FVec F S128 .f32) (main_arg14 : FVec F S64x128 .f32) (main_arg15 : FVec F S64 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_v48 main_v49 main_v50

def fn_part1 {F : FTy → Type} [FloatOps F] (main_arg6 : FVec F S128x128 .f32) (main_arg7 : FVec F S128x128 .f32) (main_arg8 : FVec F S128 .f32) (main_arg9 : FVec F S64x128 .f32) (main_arg10 : FVec F S64x128 .f32) (main_arg11 : FVec F S64 .f32) (main_arg12 : FVec F S128x64 .f32) (main_arg13 : FVec F S128 .f32) (main_arg14 : FVec F S64x128 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : IVec S2x1600000 32) (main_arg2 : IVec S2x100000 32) (main_arg3 : FVec F S128x64 .f32) (main_arg4 : FVec F S128x64 .f32) (main_arg5 : FVec F S128 .f32) (main_arg6 : FVec F S128x128 .f32) (main_arg7 : FVec F S128x128 .f32) (main_arg8 : FVec F S128 .f32) (main_arg9 : FVec F S64x128 .f32) (main_arg10 : FVec F S64x128 .f32) (main_arg11 : FVec F S64 .f32) (main_arg12 : FVec F S128x64 .f32) (main_arg13 : FVec F S128 .f32) (main_arg14 : FVec F S64x128 .f32) (main_arg15 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1600000 : Shape := ⟨2, ![2, 1600000]⟩
abbrev S2x100000 : Shape := ⟨2, ![2, 100000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S1600000x128 : Shape := ⟨2, ![1600000, 128]⟩
abbrev S1x64 : Shape := ⟨2, ![1, 64]⟩
abbrev S1x100000 : Shape := ⟨2, ![1, 100000]⟩
abbrev S2000x1 : Shape := ⟨2, ![2000, 1]⟩
abbrev S2000 : Shape := ⟨1, ![2000]⟩

abbrev nBuf : Space → Nat
  | .hbm => 137
  | .vmem => 41
  | .smem => 0
  | _ => 0

abbrev hbmTy0_0 (i : Nat) : BufTy := match i % 128 with
  | 0 => ⟨S100000x64, .f32⟩
  | 1 => ⟨S2x1600000, .i32⟩
  | 2 => ⟨S2x100000, .i32⟩
  | 3 => ⟨S128x64, .f32⟩
  | 4 => ⟨S128x64, .f32⟩
  | 5 => ⟨S128, .f32⟩
  | 6 => ⟨S128x128, .f32⟩
  | 7 => ⟨S128x128, .f32⟩
  | 8 => ⟨S128, .f32⟩
  | 9 => ⟨S64x128, .f32⟩
  | 10 => ⟨S64x128, .f32⟩
  | 11 => ⟨S64, .f32⟩
  | 12 => ⟨S128x64, .f32⟩
  | 13 => ⟨S128, .f32⟩
  | 14 => ⟨S64x128, .f32⟩
  | 15 => ⟨S64, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x64, .f32⟩
  | 42 => ⟨S_, .f32⟩
  | 43 => ⟨S100000x64, .f32⟩
  | 44 => ⟨S1600000x1, .i32⟩
  | 45 => ⟨S100000x64, .f32⟩
  | 46 => ⟨S100000x1, .f32⟩
  | 47 => ⟨S100000x64, .f32⟩
  | 48 => ⟨S100000x64, .f32⟩
  | 49 => ⟨S128x64, .bf16⟩
  | 50 => ⟨S64x128, .bf16⟩
  | 51 => ⟨S128x64, .bf16⟩
  | 52 => ⟨S64x128, .bf16⟩
  | 53 => ⟨S1x128, .f32⟩
  | 54 => ⟨S100000x64, .bf16⟩
  | 55 => ⟨S100000x64, .bf16⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x1, .f32⟩
  | 71 => ⟨S100000x128, .f32⟩
  | 72 => ⟨S100000x128, .f32⟩
  | 73 => ⟨S128x128, .bf16⟩
  | 74 => ⟨S128x128, .bf16⟩
  | 75 => ⟨S128x128, .bf16⟩
  | 76 => ⟨S128x128, .bf16⟩
  | 77 => ⟨S1x128, .f32⟩
  | 78 => ⟨S100000x128, .bf16⟩
  | 79 => ⟨S100000x128, .bf16⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S100000x1, .f32⟩
  | 95 => ⟨S100000x128, .f32⟩
  | 96 => ⟨S100000x128, .f32⟩
  | 97 => ⟨S64x128, .bf16⟩
  | 98 => ⟨S128x64, .bf16⟩
  | 99 => ⟨S64x128, .bf16⟩
  | 100 => ⟨S128x64, .bf16⟩
  | 101 => ⟨S1x64, .f32⟩
  | 102 => ⟨S100000x128, .bf16⟩
  | 103 => ⟨S100000x128, .bf16⟩
  | 104 => ⟨S100000x64, .f32⟩
  | 105 => ⟨S128x64, .bf16⟩
  | 106 => ⟨S64x128, .bf16⟩
  | 107 => ⟨S64x128, .bf16⟩
  | 108 => ⟨S128x64, .bf16⟩
  | 109 => ⟨S1x128, .f32⟩
  | 110 => ⟨S1x64, .f32⟩
  | 111 => ⟨S100000x64, .bf16⟩
  | 112 => ⟨S100000x64, .f32⟩
  | 113 => ⟨S1x100000, .i32⟩
  | 114 => ⟨S100000, .i32⟩
  | 115 => ⟨S1x100000, .i32⟩
  | 116 => ⟨S100000, .i32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x64, .f32⟩
  | 126 => ⟨S_, .i32⟩
  | 127 => ⟨S100000, .i32⟩
  | _ => ⟨S100000x64, .f32⟩

abbrev hbmTy0_1 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S100000x64, .f32⟩
  | 7 => ⟨S100000x1, .f32⟩
  | 8 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .bf16⟩
  | .local _ .vmem, ⟨1, _⟩ => ⟨S2000x64, .bf16⟩
  | .local _ .vmem, ⟨2, _⟩ => ⟨S2000x64, .bf16⟩
  | .local _ .vmem, ⟨3, _⟩ => ⟨S2000x64, .bf16⟩
  | .local _ .vmem, ⟨4, _⟩ => ⟨S64x128, .bf16⟩
  | .local _ .vmem, ⟨5, _⟩ => ⟨S64x128, .bf16⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .bf16⟩
  | .local _ .vmem, ⟨19, _⟩ => ⟨S2000x128, .bf16⟩
  | .local _ .vmem, ⟨20, _⟩ => ⟨S2000x128, .bf16⟩
  | .local _ .vmem, ⟨21, _⟩ => ⟨S2000x128, .bf16⟩
  | .local _ .vmem, ⟨22, _⟩ => ⟨S128x64, .bf16⟩
  | .local _ .vmem, ⟨23, _⟩ => ⟨S128x64, .bf16⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | .local _ .vmem, ⟨27, _⟩ => ⟨S2000x64, .bf16⟩
  | .local _ .vmem, ⟨28, _⟩ => ⟨S2000x64, .bf16⟩
  | .local _ .vmem, ⟨29, _⟩ => ⟨S64x128, .bf16⟩
  | .local _ .vmem, ⟨30, _⟩ => ⟨S1x128, .f32⟩
  | .local _ .vmem, ⟨31, _⟩ => ⟨S128x64, .bf16⟩
  | .local _ .vmem, ⟨32, _⟩ => ⟨S1x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x1, .f32⟩
  | .local _ .vmem, ⟨40, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_8 : Ref sig .tc := ⟨.hbm, 81, rfl⟩
abbrev main_v53 : Ref sig .tc := ⟨.hbm, 82, rfl⟩
abbrev main_v54 : Ref sig .tc := ⟨.hbm, 83, rfl⟩
abbrev main_c_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_11 : Ref sig .tc := ⟨.hbm, 117, rfl⟩
abbrev main_v86 : Ref sig .tc := ⟨.hbm, 118, rfl⟩
abbrev main_v87 : Ref sig .tc := ⟨.hbm, 119, rfl⟩
abbrev main_c_12 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_13 : Ref sig .tc := ⟨.hbm, 126, rfl⟩
abbrev main_v93 : Ref sig .tc := ⟨.hbm, 127, rfl⟩
abbrev main_v94 : Ref sig .tc := ⟨.hbm, 128, rfl⟩
abbrev main_c_14 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bitsLt_bf16_f32 : FTy.bits .bf16 < FTy.bits .f32
  transposes_S128x64_S64x128_1_0 : S128x64.Transposes [1, 0] S64x128
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S2x100000_S1x100000_0_0 : S2x100000.Slices ![0, 0] S1x100000
  shapeCasts_S1x100000_S100000 : S1x100000.ShapeCasts S100000
  slices_S2x100000_S1x100000_1_0 : S2x100000.Slices ![1, 0] S1x100000
  reduces_S2000x64_S2000 : S2000x64.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S100000x64_S100000x1_S100000x64_1_0_n_n_0_1_164_wf : GatherDims.WF S100000x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .bf16 = 32 ∨ (Rect.block (s := S100000x64) S2000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .bf16 = 32 ∨ (Rect.block (s := S100000x64) S2000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .bf16 = 32 ∨ (Rect.block (s := S100000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .bf16 = 32 ∨ (Rect.block (s := S100000x128) S2000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .bf16 = 32 ∨ (Rect.block (s := S100000x64) S2000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .bf16 = 32 ∨ (Rect.block (s := S64x128) S64x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .bf16 = 32 ∨ (Rect.block (s := S128x64) S128x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

abbrev win0_0 : Pipeline.Window sig grid0 :=
  Pipeline.Window.ofSpec (Memref.whole main_v29) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v71) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v80) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v92) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v99) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v100) S2000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S2x100000 : Shape := ⟨2, ![2, 100000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S1x100000 : Shape := ⟨2, ![1, 100000]⟩

abbrev nBuf : Space → Nat
  | .hbm => 166
  | .vmem => 0
  | .smem => 0
  | _ => 0

abbrev hbmTy0_0 (i : Nat) : BufTy := match i % 128 with
  | 0 => ⟨S100000x64, .f32⟩
  | 1 => ⟨S2x1600000, .i32⟩
  | 2 => ⟨S2x100000, .i32⟩
  | 3 => ⟨S128x64, .f32⟩
  | 4 => ⟨S128x64, .f32⟩
  | 5 => ⟨S128, .f32⟩
  | 6 => ⟨S128x128, .f32⟩
  | 7 => ⟨S128x128, .f32⟩
  | 8 => ⟨S128, .f32⟩
  | 9 => ⟨S64x128, .f32⟩
  | 10 => ⟨S64x128, .f32⟩
  | 11 => ⟨S64, .f32⟩
  | 12 => ⟨S128x64, .f32⟩
  | 13 => ⟨S128, .f32⟩
  | 14 => ⟨S64x128, .f32⟩
  | 15 => ⟨S64, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S_, .f32⟩
  | 36 => ⟨S100000x64, .f32⟩
  | 37 => ⟨S1600000x1, .i32⟩
  | 38 => ⟨S100000x64, .f32⟩
  | 39 => ⟨S_, .f32⟩
  | 40 => ⟨S_, .f32⟩
  | 41 => ⟨S100000, .f32⟩
  | 42 => ⟨S100000, .f32⟩
  | 43 => ⟨S100000x1, .f32⟩
  | 44 => ⟨S100000x64, .f32⟩
  | 45 => ⟨S100000x64, .f32⟩
  | 46 => ⟨S64x128, .f32⟩
  | 47 => ⟨S100000x128, .f32⟩
  | 48 => ⟨S64x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .f32⟩
  | 58 => ⟨S1600000, .f32⟩
  | 59 => ⟨S_, .f32⟩
  | 60 => ⟨S100000, .f32⟩
  | 61 => ⟨S1600000x1, .i32⟩
  | 62 => ⟨S100000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S_, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S128x128, .f32⟩
  | 84 => ⟨S100000x128, .f32⟩
  | 85 => ⟨S128x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S_, .f32⟩
  | 95 => ⟨S1600000, .f32⟩
  | 96 => ⟨S_, .f32⟩
  | 97 => ⟨S100000, .f32⟩
  | 98 => ⟨S1600000x1, .i32⟩
  | 99 => ⟨S100000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S_, .f32⟩
  | 114 => ⟨S_, .f32⟩
  | 115 => ⟨S100000, .f32⟩
  | 116 => ⟨S100000, .f32⟩
  | 117 => ⟨S100000x1, .f32⟩
  | 118 => ⟨S100000x128, .f32⟩
  | 119 => ⟨S100000x128, .f32⟩
  | 120 => ⟨S128x64, .f32⟩
  | 121 => ⟨S100000x64, .f32⟩
  | 122 => ⟨S128x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S64x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S128x64, .f32⟩
  | 9 => ⟨S100000x64, .f32⟩
  | 10 => ⟨S1x64, .f32⟩
  | 11 => ⟨S100000x64, .f32⟩
  | 12 => ⟨S100000x64, .f32⟩
  | 13 => ⟨S1x100000, .i32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x64, .f32⟩
  | 24 => ⟨S1x100000, .i32⟩
  | 25 => ⟨S100000, .i32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x64, .f32⟩
  | 35 => ⟨S100000x64, .f32⟩
  | 36 => ⟨S_, .f32⟩
  | 37 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_cst : Ref sig .tc := ⟨.hbm, 54, rfl⟩
abbrev main_call1_v0 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_c_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_call3_cst : Ref sig .tc := ⟨.hbm, 91, rfl⟩
abbrev main_call3_v0 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c_12 : Ref sig .tc := ⟨.hbm, 100, rfl⟩
abbrev main_v62 : Ref sig .tc := ⟨.hbm, 101, rfl⟩
abbrev main_v63 : Ref sig .tc := ⟨.hbm, 102, rfl⟩
abbrev main_c_13 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_14 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_15 : Ref sig .tc := ⟨.hbm, 113, rfl⟩
abbrev main_call4_v0 : Ref sig .tc := ⟨.hbm, 114, rfl⟩
abbrev main_call4_v1 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_call5_cst : Ref sig .tc := ⟨.hbm, 133, rfl⟩
abbrev main_call5_v0 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_16 : Ref sig .tc := ⟨.hbm, 143, rfl⟩
abbrev main_v97 : Ref sig .tc := ⟨.hbm, 144, rfl⟩
abbrev main_v98 : Ref sig .tc := ⟨.hbm, 145, rfl⟩
abbrev main_c_17 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_c_18 : Ref sig .tc := ⟨.hbm, 154, rfl⟩
abbrev main_v106 : Ref sig .tc := ⟨.hbm, 155, rfl⟩
abbrev main_v107 : Ref sig .tc := ⟨.hbm, 156, rfl⟩
abbrev main_c_19 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_20 : Ref sig .tc := ⟨.hbm, 164, rfl⟩
abbrev main_v114 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  reducesTo_S100000x64_S100000_d1 : S100000x64.ReducesTo [1] S100000
  h_S_ : 0 < S_.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S100000x1_S100000x64_1_0_n_n_0_1_164_wf : GatherDims.WF S100000x64 S100000x1 S100000x64 [1] [0] [] [0] [] 1 ![1, 64]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

class Facts : Prop extends Facts₀ where

variable [Facts]
-- ==== Proof.KernelRun.lean ====
/-
  The idealized kernel's run with its three results named. The program is thirteen segments — host
  operations, then five tiled regions with host operations between them — and the buffer contents at each
  segment boundary are a fold from the launch memory (the generated frame module's `W0 … W13`). Every
  weakly fair execution terminates without a fault with every unscoped buffer at the last boundary's
  contents; read at the three result buffers that is the statement below, and at the sixteen argument
  buffers it is the launch memory again.
-/
import proofs.«148430_j64776696758992_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the three result
    buffers at the last segment boundary's contents and the argument buffers as launched. -/
theorem run : θ_run defs (onTc (τ := τ) (main (F := F))) ⟨m, fun _ => 0, ρ⟩ (fun r => ∀ c : Dev nD,
      r.2.mem ((c.tc : Thread nD τ).loc main_v73) = W13 m ρ c (Proc.devRef .tc main_v73)
      ∧ r.2.mem ((c.tc : Thread nD τ).loc main_v81) = W13 m ρ c (Proc.devRef .tc main_v81)
      ∧ r.2.mem ((c.tc : Thread nD τ).loc main_v101) = W13 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v73 (by decide)),
       h c _ (mem_uc main_v81 (by decide)),
       h c _ (mem_uc main_v101 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c)⟩)

end Cert.KernelIdeal.Results

end
-- ==== Proof.Layers.lean ====
/-
  The five array functions the certificate is cut along, each stated with the host's own operations at the
  extended reals (floats exact, format changes the identity):

  * `layer0`, `layer1`, `layer2` — one SAGE layer's combine step on whole arrays: for the mean-aggregated
    neighbour features `A` and the node's own features `X` (both N × Cin), the two weight matrices already
    transposed to Cin × Cout and the bias as a 1 × Cout row,
        out[r, j] = (Σ_k A[r, k] · WlT[k, j]) + (Σ_k X[r, k] · WrT[k, j]) + B[0, j],
    followed by max(·, 0) in the first two layers;
  * `mlp` — the feature decoder: max(E · W1T + B1, 0) · W2T + B2;
  * `score` — the edge decoder: the row-wise inner product of two gathered embedding arrays.

  A tiled kernel that computes 2000 rows at a time and the reference that computes all 100000 rows at once
  are both one of these functions: a row of the product depends on that row of the left factor only.
-/
import proofs.«148430_j64776696758992_1_alg».proof.ReferenceIdeal
import proofs.«148430_j64776696758992_1_alg».proof.Proof.Gen.ReferenceIdeal
import Idealize.ShloMosaic.PureOps.Ideal

noncomputable section

namespace Cert.Bridge

open Idealize.ShloMosaic Cert.ReferenceIdeal Cert.ReferenceIdeal.Facts₀ Cert.ReferenceIdeal.Facts

/-- The all-zero array of a given shape that `max(·, 0)` compares with. -/
abbrev zeros128 : FVec Ideal S100000x128 .f32 :=
  broadcastInDim S100000x128 ![] bcast_S_S100000x128 (constant S_ .f32 0x00000000#32)

/-- Layer 0 (64 → 128 features): max(A · WlT + X · WrT + B, 0). -/
def layer0 (A X : FVec Ideal S100000x64 .f32) (WlT WrT : FVec Ideal S64x128 .f32) (B : FVec Ideal S1x128 .f32) :
    FVec Ideal S100000x128 .f32 :=
  maximumf (addf (addf (Host.dotGeneral dot_S100000x64_S64x128_S100000x128_1_0_0_1_n_n none A WlT)
      (Host.dotGeneral dot_S100000x64_S64x128_S100000x128_1_0_0_1_n_n none X WrT))
    (broadcastInDim S100000x128 ![0, 1] bcast_S1x128_S100000x128_0_1 B)) zeros128

/-- Layer 1 (128 → 128 features): max(A · WlT + X · WrT + B, 0). -/
def layer1 (A X : FVec Ideal S100000x128 .f32) (WlT WrT : FVec Ideal S128x128 .f32) (B : FVec Ideal S1x128 .f32) :
    FVec Ideal S100000x128 .f32 :=
  maximumf (addf (addf (Host.dotGeneral dot_S100000x128_S128x128_S100000x128_1_0_0_1_n_n none A WlT)
      (Host.dotGeneral dot_S100000x128_S128x128_S100000x128_1_0_0_1_n_n none X WrT))
    (broadcastInDim S100000x128 ![0, 1] bcast_S1x128_S100000x128_0_1 B)) zeros128

/-- Layer 2 (128 → 64 features, no rectifier): A · WlT + X · WrT + B. -/
def layer2 (A X : FVec Ideal S100000x128 .f32) (WlT WrT : FVec Ideal S128x64 .f32) (B : FVec Ideal S1x64 .f32) :
    FVec Ideal S100000x64 .f32 :=
  addf (addf (Host.dotGeneral dot_S100000x128_S128x64_S100000x64_1_0_0_1_n_n none A WlT)
      (Host.dotGeneral dot_S100000x128_S128x64_S100000x64_1_0_0_1_n_n none X WrT))
    (broadcastInDim S100000x64 ![0, 1] bcast_S1x64_S100000x64_0_1 B)

/-- The decoder: max(E · W1T + B1, 0) · W2T + B2. -/
def mlp (E : FVec Ideal S100000x64 .f32) (W1T : FVec Ideal S64x128 .f32) (B1 : FVec Ideal S1x128 .f32)
    (W2T : FVec Ideal S128x64 .f32) (B2 : FVec Ideal S1x64 .f32) : FVec Ideal S100000x64 .f32 :=
  addf (Host.dotGeneral dot_S100000x128_S128x64_S100000x64_1_0_0_1_n_n none
      (maximumf (addf (Host.dotGeneral dot_S100000x64_S64x128_S100000x128_1_0_0_1_n_n none E W1T)
        (broadcastInDim S100000x128 ![0, 1] bcast_S1x128_S100000x128_0_1 B1)) zeros128) W2T)
    (broadcastInDim S100000x64 ![0, 1] bcast_S1x64_S100000x64_0_1 B2)

/-- The edge scores: entry e is Σ_k GS[e, k] · GD[e, k] (added to the zero the sum starts from). -/
def score (GS GD : FVec Ideal S100000x64 .f32) : FVec Ideal S100000 .f32 :=
  Host.reduceAdd (mulf GS GD) (constant S_ .f32 0x00000000#32) reducesTo_S100000x64_S100000_d1 h_S_

/-- The same scores laid out as a column (100000 × 1), the shape the tiled kernel writes. -/
def scoreCol (GS GD : FVec Ideal S100000x64 .f32) : FVec Ideal S100000x1 .f32 :=
  fun i => score GS GD (fun a => match a with | ⟨0, _⟩ => ⟨(i 0).val, (i 0).isLt⟩)

end Cert.Bridge

end
-- ==== Proof.KernelSpec.lean ====
/-
  The idealized kernel's three results as functions of its argument arrays, at the extended reals.

  With `e` the 2 × 1600000 edge list (row 0 the sources, row 1 the destinations), N = 100000 nodes:
    deg[v]   = the number of edges into v (a scatter-add of ones),   dinv[v] = 1 / max(1, deg[v]),
    agg(f)[v, k] = (Σ over edges (u → v) of f[u', k]) · dinv[v]       (u' = u, or u + N when u is negative),
    h1 = max(agg(x)·Wl0ᵀ + x·Wr0ᵀ + b0, 0),  h2 = max(agg(h1)·Wl1ᵀ + h1·Wr1ᵀ + b1, 0),
    emb = agg(h2)·Wl2ᵀ + h2·Wr2ᵀ + b2,   rec = max(emb·Wd1ᵀ + bd1, 0)·Wd2ᵀ + bd2,
    scores[s] = Σ_k emb[s0', k] · emb[s1', k]   for the sampled pairs (s0, s1).
  The gathers and scatter-adds are the host's own; each combine step, the decoder and the score are the
  whole-array functions of `Layers`. Casts to bf16 are written where the program has them; at the extended
  reals they are the identity.
-/
import proofs.«148430_j64776696758992_1_alg».proof.KernelIdeal
import proofs.«148430_j64776696758992_1_alg».proof.Proof.Gen.KernelIdeal
import proofs.«148430_j64776696758992_1_alg».proof.Proof.Layers

noncomputable section

namespace Cert.KernelIdeal.Spec

open Idealize.ShloMosaic Cert.KernelIdeal Cert.KernelIdeal.Facts₀ Cert.KernelIdeal.Facts

/-! ## The edge list -/

/-- Row 0 of the edge list: the source of each edge. -/
def src (e : IVec S2x1600000 32) : IVec S1600000 32 :=
  shapeCast S1600000 (extractStridedSlice S1x1600000 ![0, 0] e slices_S2x1600000_S1x1600000_0_0) shapeCasts_S1x1600000_S1600000

/-- Row 1 of the edge list: the destination of each edge. -/
def dst (e : IVec S2x1600000 32) : IVec S1600000 32 :=
  shapeCast S1600000 (extractStridedSlice S1x1600000 ![1, 0] e slices_S2x1600000_S1x1600000_1_0) shapeCasts_S1x1600000_S1600000

/-- The sources with a negative index wrapped once (u + N when u < 0): the row each edge gathers. -/
def srcN (e : IVec S2x1600000 32) : IVec S1600000 32 :=
  select (cmpi .slt (src e) (broadcastInDim S1600000 ![] bcast_S_S1600000 (constantI S_ 32 0#32)))
    (addi (src e) (broadcastInDim S1600000 ![] bcast_S_S1600000 (constantI S_ 32 100000#32))) (src e)

/-- The in-degree of every node: ones scattered and added at the destinations. -/
def deg (e : IVec S2x1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (dst e))
    (broadcastInDim S1600000 ![] bcast_S_S1600000 (constant S_ .f32 0x3F800000#32))

/-- max(1, deg): never zero. -/
def clip (e : IVec S2x1600000 32) : FVec Ideal S100000 .f32 :=
  maximumf (broadcastInDim S100000 ![] bcast_S_S100000 (id (constant S_ .f32 0x3F800000#32))) (deg e)

/-- 1 / max(1, deg). -/
def dinv (e : IVec S2x1600000 32) : FVec Ideal S100000 .f32 :=
  Host.divf (broadcastInDim S100000 ![] bcast_S_S100000 (constant S_ .f32 0x3F800000#32)) (clip e)

/-! ## The mean over the neighbours -/

/-- Neighbour sums of a 64-feature array, times 1 / max(1, deg). -/
def agg64 (f : FVec Ideal S100000x64 .f32) (e : IVec S2x1600000 32) : FVec Ideal S100000x64 .f32 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (dst e))
      (Host.gather gather_S100000x64_S1600000x1_S1600000x64_1_0_n_n_0_1_164 f
        (broadcastInDim S1600000x1 ![0] bcast_S1600000_S1600000x1_0 (srcN e))))
    (broadcastInDim S100000x64 ![0, 1] bcast_S100000x1_S100000x64_0_1
      (broadcastInDim S100000x1 ![0] bcast_S100000_S100000x1_0 (dinv e)))

/-- Neighbour sums of a 128-feature array, times 1 / max(1, deg). -/
def agg128 (f : FVec Ideal S100000x128 .f32) (e : IVec S2x1600000 32) : FVec Ideal S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dst e))
      (Host.gather gather_S100000x128_S1600000x1_S1600000x128_1_0_n_n_0_1_1128 f
        (broadcastInDim S1600000x1 ![0] bcast_S1600000_S1600000x1_0 (srcN e))))
    (broadcastInDim S100000x128 ![0, 1] bcast_S100000x1_S100000x128_0_1
      (broadcastInDim S100000x1 ![0] bcast_S100000_S100000x1_0 (dinv e)))

/-! ## The three layers, the decoder and the scores -/

def h1 (x : FVec Ideal S100000x64 .f32) (e : IVec S2x1600000 32) (wl0 wr0 : FVec Ideal S128x64 .f32)
    (b0 : FVec Ideal S128 .f32) : FVec Ideal S100000x128 .f32 :=
  Cert.Bridge.layer0 (truncf .bf16 (agg64 x e) bitsLt_bf16_f32) (truncf .bf16 x bitsLt_bf16_f32)
    (transpose S64x128 [1, 0] (truncf .bf16 wl0 bitsLt_bf16_f32) transposes_S128x64_S64x128_1_0)
    (transpose S64x128 [1, 0] (truncf .bf16 wr0 bitsLt_bf16_f32) transposes_S128x64_S64x128_1_0)
    (shapeCast S1x128 b0 shapeCasts_S128_S1x128)

def h2 (x : FVec Ideal S100000x64 .f32) (e : IVec S2x1600000 32) (wl0 wr0 : FVec Ideal S128x64 .f32)
    (b0 : FVec Ideal S128 .f32) (wl1 wr1 : FVec Ideal S128x128 .f32) (b1 : FVec Ideal S128 .f32) :
    FVec Ideal S100000x128 .f32 :=
  Cert.Bridge.layer1 (truncf .bf16 (agg128 (h1 x e wl0 wr0 b0) e) bitsLt_bf16_f32) (truncf .bf16 (h1 x e wl0 wr0 b0) bitsLt_bf16_f32)
    (transpose S128x128 [1, 0] (truncf .bf16 wl1 bitsLt_bf16_f32) transposes_S128x128_S128x128_1_0)
    (transpose S128x128 [1, 0] (truncf .bf16 wr1 bitsLt_bf16_f32) transposes_S128x128_S128x128_1_0)
    (shapeCast S1x128 b1 shapeCasts_S128_S1x128)

def emb (x : FVec Ideal S100000x64 .f32) (e : IVec S2x1600000 32) (wl0 wr0 : FVec Ideal S128x64 .f32)
    (b0 : FVec Ideal S128 .f32) (wl1 wr1 : FVec Ideal S128x128 .f32) (b1 : FVec Ideal S128 .f32)
    (wl2 wr2 : FVec Ideal S64x128 .f32) (b2 : FVec Ideal S64 .f32) : FVec Ideal S100000x64 .f32 :=
  Cert.Bridge.layer2 (truncf .bf16 (agg128 (h2 x e wl0 wr0 b0 wl1 wr1 b1) e) bitsLt_bf16_f32)
    (truncf .bf16 (h2 x e wl0 wr0 b0 wl1 wr1 b1) bitsLt_bf16_f32)
    (transpose S128x64 [1, 0] (truncf .bf16 wl2 bitsLt_bf16_f32) transposes_S64x128_S128x64_1_0)
    (transpose S128x64 [1, 0] (truncf .bf16 wr2 bitsLt_bf16_f32) transposes_S64x128_S128x64_1_0)
    (shapeCast S1x64 b2 shapeCasts_S64_S1x64)

/-- The decoder applied to an embedding array. -/
def dec (E : FVec Ideal S100000x64 .f32) (wd1 : FVec Ideal S128x64 .f32) (bd1 : FVec Ideal S128 .f32)
    (wd2 : FVec Ideal S64x128 .f32) (bd2 : FVec Ideal S64 .f32) : FVec Ideal S100000x64 .f32 :=
  Cert.Bridge.mlp (truncf .bf16 E bitsLt_bf16_f32)
    (transpose S64x128 [1, 0] (truncf .bf16 wd1 bitsLt_bf16_f32) transposes_S128x64_S64x128_1_0)
    (shapeCast S1x128 bd1 shapeCasts_S128_S1x128)
    (transpose S128x64 [1, 0] (truncf .bf16 wd2 bitsLt_bf16_f32) transposes_S64x128_S128x64_1_0)
    (shapeCast S1x64 bd2 shapeCasts_S64_S1x64)

/-- One row of the sampled pairs, negative indices wrapped once. -/
def pick0 (s : IVec S2x100000 32) : IVec S100000 32 :=
  shapeCast S100000 (extractStridedSlice S1x100000 ![0, 0] s slices_S2x100000_S1x100000_0_0) shapeCasts_S1x100000_S100000
def pick1 (s : IVec S2x100000 32) : IVec S100000 32 :=
  shapeCast S100000 (extractStridedSlice S1x100000 ![1, 0] s slices_S2x100000_S1x100000_1_0) shapeCasts_S1x100000_S100000
def wrap (i : IVec S100000 32) : IVec S100000 32 :=
  select (cmpi .slt i (broadcastInDim S100000 ![] bcast_S_S100000 (constantI S_ 32 0#32)))
    (addi i (broadcastInDim S100000 ![] bcast_S_S100000 (constantI S_ 32 100000#32))) i

/-- The embedding rows a list of indices picks. -/
def rows (E : FVec Ideal S100000x64 .f32) (i : IVec S100000 32) : FVec Ideal S100000x64 .f32 :=
  Host.gather gather_S100000x64_S100000x1_S100000x64_1_0_n_n_0_1_164 E
    (broadcastInDim S100000x1 ![0] bcast_S100000_S100000x1_0 (wrap i))

/-- The edge scores of an embedding array, as the flat array the program returns. -/
def scores (E : FVec Ideal S100000x64 .f32) (s : IVec S2x100000 32) : FVec Ideal S100000 .f32 :=
  shapeCast S100000 (Cert.Bridge.scoreCol (rows E (pick0 s)) (rows E (pick1 s))) shapeCasts_S100000x1_S100000

end Cert.KernelIdeal.Spec

end
-- ==== Proof.Region0.lean ====
/-
  What SAGE combine region 0 leaves in its output array: max(A · WlT + X · WrT + B, 0) on whole arrays.

  The region computes 2000 rows at a time: at grid point t it reads rows 2000·t … 2000·t + 1999 of the aggregated
  features A and of the node features X, the two 64 × 128 weight matrices and the 1 × 128 bias row whole, and
  writes the same rows of the output. Entry (p, q) of what it writes is
      (Σ_k A[2000·t + p, k] · WlT[k, q]) + (Σ_k X[2000·t + p, k] · WrT[k, q]) + B[0, q], followed by max(·, 0),
  which is entry (2000·t + p, q) of the whole-array layer: a row of a matrix product depends on that row of the left
  factor only. The 50 blocks of 2000 rows tile the 100000 rows, so the array ends holding the layer.
-/
import proofs.«148430_j64776696758992_1_alg».proof.Proof.Gen.KernelIdeal.Frame
import proofs.«148430_j64776696758992_1_alg».proof.Proof.Layers
import Idealize.ShloMosaic.Lib.Pipeline.Value
import Idealize.ShloMosaic.Lib.ValueIdx
import Idealize.ShloMosaic.PureOps.Ideal.Laws

noncomputable section

namespace Cert.Bridge.Regions

/-! ## The whole-array layer at an index (the host's operations) -/

namespace R0
section Host
open Idealize.ShloMosaic Idealize.ShloMosaic.ValueIdx
open Cert.ReferenceIdeal Cert.ReferenceIdeal.Facts₀ Cert.ReferenceIdeal.Facts

/-! The operand indices of the 100000 × 64 by 64 × 128 product at output index i and contraction index κ:
    (i₀, κ) on the left and (κ, i₁) on the right. -/

theorem arr_lhs0 (i : S100000x128.Idx) (κ : dot_S100000x64_S64x128_S100000x128_1_0_0_1_n_n.contr.Idx) : (dot_S100000x64_S64x128_S100000x128_1_0_0_1_n_n.lhsIdx i κ 0).val = (i 0).val := by
  unfold DotDims.lhsIdx
  rw [dif_neg (show ¬(0 : Fin S100000x64.rank) ∈ dot_S100000x64_S64x128_S100000x128_1_0_0_1_n_n.lhsBatch by decide), dif_pos (show (0 : Fin S100000x64.rank) ∈ dot_S100000x64_S64x128_S100000x128_1_0_0_1_n_n.lhsNonContracting by decide)]
  rfl
theorem arr_lhs1 (i : S100000x128.Idx) (κ : dot_S100000x64_S64x128_S100000x128_1_0_0_1_n_n.contr.Idx) : (dot_S100000x64_S64x128_S100000x128_1_0_0_1_n_n.lhsIdx i κ 1).val = (κ ⟨0, by decide⟩).val :=
  dot_S100000x64_S64x128_S100000x128_1_0_0_1_n_n.lhsIdx_val_of_single rfl i κ
theorem arr_rhs0 (i : S100000x128.Idx) (κ : dot_S100000x64_S64x128_S100000x128_1_0_0_1_n_n.contr.Idx) : (dot_S100000x64_S64x128_S100000x128_1_0_0_1_n_n.rhsIdx i κ 0).val = (κ ⟨0, by decide⟩).val :=
  dot_S100000x64_S64x128_S100000x128_1_0_0_1_n_n.rhsIdx_val_of_single rfl i κ
theorem arr_rhs1 (i : S100000x128.Idx) (κ : dot_S100000x64_S64x128_S100000x128_1_0_0_1_n_n.contr.Idx) : (dot_S100000x64_S64x128_S100000x128_1_0_0_1_n_n.rhsIdx i κ 1).val = (i 1).val := by
  unfold DotDims.rhsIdx
  rw [dif_neg (show ¬(1 : Fin S64x128.rank) ∈ dot_S100000x64_S64x128_S100000x128_1_0_0_1_n_n.rhsBatch by decide), dif_pos (show (1 : Fin S64x128.rank) ∈ dot_S100000x64_S64x128_S100000x128_1_0_0_1_n_n.rhsNonContracting by decide)]
  rfl

/-- The whole 100000 × 64 array times a 64 × 128 matrix, read at (p, q): Σ_k a[p,k] · w[k,q]. -/
theorem arr_dot_apply (a : FVec Ideal S100000x64 .f32) (w : FVec Ideal S64x128 .f32) (p : Fin 100000) (q : Fin 128) :
    (Host.dotGeneral (F := Ideal) dot_S100000x64_S64x128_S100000x128_1_0_0_1_n_n none a w : FVec Ideal S100000x128 .f32) (ix2 p q)
      = (∑ k : Fin 64, a (ix2 p k) * w (ix2 k q) : EReal) := by
  simp only [Host.dotGeneral]
  rw [Ideal.dotGeneral_apply, ← Equiv.sum_comp (ValueIdx.contrEquiv1 dot_S100000x64_S64x128_S100000x128_1_0_0_1_n_n 64 rfl rfl).symm]
  refine Finset.sum_congr rfl fun k _ => ?_
  have hk := ValueIdx.contrEquiv1_symm_val dot_S100000x64_S64x128_S100000x128_1_0_0_1_n_n 64 rfl rfl k
  have el : dot_S100000x64_S64x128_S100000x128_1_0_0_1_n_n.lhsIdx (ix2 p q) ((ValueIdx.contrEquiv1 dot_S100000x64_S64x128_S100000x128_1_0_0_1_n_n 64 rfl rfl).symm k) = ix2 p k := funext fun a => Fin.ext (by
    match a with
    | ⟨0, _⟩ => exact arr_lhs0 _ _
    | ⟨1, _⟩ => exact (arr_lhs1 _ _).trans hk)
  have er : dot_S100000x64_S64x128_S100000x128_1_0_0_1_n_n.rhsIdx (ix2 p q) ((ValueIdx.contrEquiv1 dot_S100000x64_S64x128_S100000x128_1_0_0_1_n_n 64 rfl rfl).symm k) = ix2 k q := funext fun a => Fin.ext (by
    match a with
    | ⟨0, _⟩ => exact (arr_rhs0 _ _).trans hk
    | ⟨1, _⟩ => exact arr_rhs1 _ _)
  rw [el, er]

/-- The layer at entry (r, q). -/
theorem layer_apply (A X : FVec Ideal S100000x64 .f32) (WlT WrT : FVec Ideal S64x128 .f32) (B : FVec Ideal S1x128 .f32)
    (r : Fin 100000) (q : Fin 128) :
    Cert.Bridge.layer0 A X WlT WrT B (ix2 r q)
      = (max (((∑ k : Fin 64, A (ix2 r k) * WlT (ix2 k q)) + (∑ k : Fin 64, X (ix2 r k) * WrT (ix2 k q))) + B (ix2 0 q)) (Ideal.ofBits .f32 0x00000000#32) : EReal) := by
  unfold Cert.Bridge.layer0
  rw [maximumf_apply, addf_apply, addf_apply, arr_dot_apply, arr_dot_apply]
  refine congrArg₂ max (congrArg₂ (· + ·) rfl ?_) rfl
  exact broadcastInDim_apply _ _ B (ix2 r q) (ix2 0 q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])

end Host

/-! ## One block of 2000 rows (the kernel's operations) -/

section Block
open Cert.KernelIdeal Cert.KernelIdeal.Gen Idealize.ShloMosaic Idealize.ShloMosaic.TcCoe Idealize.SL.Sem
open Idealize.ShloMosaic.ValueIdx

/-! The operand indices of the 2000 × 64 by 64 × 128 product, as above. -/

theorem blk_lhs0 (i : S2000x128.Idx) (κ : dot_S2000x64_S64x128_S2000x128_1_0_0_1_n_n.contr.Idx) : (dot_S2000x64_S64x128_S2000x128_1_0_0_1_n_n.lhsIdx i κ 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem blk_lhs1 (i : S2000x128.Idx) (κ : dot_S2000x64_S64x128_S2000x128_1_0_0_1_n_n.contr.Idx) : (dot_S2000x64_S64x128_S2000x128_1_0_0_1_n_n.lhsIdx i κ 1).val = (κ ⟨0, by decide⟩).val :=
  dot_S2000x64_S64x128_S2000x128_1_0_0_1_n_n.lhsIdx_val_of_single rfl i κ
theorem blk_rhs0 (i : S2000x128.Idx) (κ : dot_S2000x64_S64x128_S2000x128_1_0_0_1_n_n.contr.Idx) : (dot_S2000x64_S64x128_S2000x128_1_0_0_1_n_n.rhsIdx i κ 0).val = (κ ⟨0, by decide⟩).val :=
  dot_S2000x64_S64x128_S2000x128_1_0_0_1_n_n.rhsIdx_val_of_single rfl i κ
theorem blk_rhs1 (i : S2000x128.Idx) (κ : dot_S2000x64_S64x128_S2000x128_1_0_0_1_n_n.contr.Idx) : (dot_S2000x64_S64x128_S2000x128_1_0_0_1_n_n.rhsIdx i κ 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A 2000 × 64 block times a 64 × 128 matrix, accumulated into zero, read at (p, q): Σ_k a[p,k] · w[k,q]. -/
theorem blk_matmul_apply (a : FVec Ideal S2000x64 .bf16) (w : FVec Ideal S64x128 .bf16) (p : Fin 2000) (q : Fin 128) :
    (matmul (F := Ideal) dot_S2000x64_S64x128_S2000x128_1_0_0_1_n_n none a w (constant (F := Ideal) S2000x128 .f32 0x00000000#32) : FVec Ideal S2000x128 .f32) (ix2 p q)
      = (∑ k : Fin 64, a (ix2 p k) * w (ix2 k q) : EReal) := by
  simp only [matmul]
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p q) ((ValueIdx.contrEquiv1 dot_S2000x64_S64x128_S2000x128_1_0_0_1_n_n 64 rfl rfl).symm k) = ix2 p k := funext fun a => Fin.ext (by
    match a with
    | ⟨0, _⟩ => exact blk_lhs0 _ _
    | ⟨1, _⟩ => exact (blk_lhs1 _ _).trans hk)
  have er : dot_S2000x64_S64x128_S2000x128_1_0_0_1_n_n.rhsIdx (ix2 p q) ((ValueIdx.contrEquiv1 dot_S2000x64_S64x128_S2000x128_1_0_0_1_n_n 64 rfl rfl).symm k) = ix2 k q := funext fun a => Fin.ext (by
    match a with
    | ⟨0, _⟩ => exact (blk_rhs0 _ _).trans hk
    | ⟨1, _⟩ => exact blk_rhs1 _ _)
  rw [el, er]

/-- The stored value as one expression of the five loaded blocks. -/
theorem pay_eq (x0 x1 : FVec Ideal S2000x64 .bf16) (x2 x3 : FVec Ideal S64x128 .bf16) (x4 : FVec Ideal S1x128 .f32) :
    k0_pay1 (F := Ideal) x0 x1 x2 x3 x4
      = maximumf (addf (addf (matmul dot_S2000x64_S64x128_S2000x128_1_0_0_1_n_n none (shapeCast S2000x64 x0 shapeCasts_S2000x64_S2000x64) (shapeCast S64x128 x2 shapeCasts_S64x128_S64x128) (constant S2000x128 .f32 0x00000000#32)) (matmul dot_S2000x64_S64x128_S2000x128_1_0_0_1_n_n none (shapeCast S2000x64 x1 shapeCasts_S2000x64_S2000x64) (shapeCast S64x128 x3 shapeCasts_S64x128_S64x128) (constant S2000x128 .f32 0x00000000#32))) (broadcastTo S2000x128 (shapeCast S1x128 x4 shapeCasts_S1x128_S1x128) broadcasts_S1x128_S2000x128)) (broadcast S2000x128 (Scalar.ofBits .f32 0x00000000#32)) := rfl

/-- The stored value at entry (p, q) of the block. -/
theorem pay_apply (x0 x1 : FVec Ideal S2000x64 .bf16) (x2 x3 : FVec Ideal S64x128 .bf16) (x4 : FVec Ideal S1x128 .f32)
    (p : Fin 2000) (q : Fin 128) :
    k0_pay1 (F := Ideal) x0 x1 x2 x3 x4 (ix2 p q)
      = (max (((∑ k : Fin 64, x0 (ix2 p k) * x2 (ix2 k q)) + (∑ k : Fin 64, x1 (ix2 p k) * x3 (ix2 k q))) + x4 (ix2 0 q)) (Ideal.ofBits .f32 0x00000000#32) : EReal) := by
  rw [pay_eq]
  simp only [shapeCast_self]
  rw [maximumf_apply, addf_apply, addf_apply, blk_matmul_apply, blk_matmul_apply]
  refine congrArg₂ max (congrArg₂ (· + ·) rfl ?_) rfl
  exact broadcastTo_apply x4 broadcasts_S1x128_S2000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- ROWS 2000·b … 2000·b + 1999 OF THE LAYER are the block computation on those rows of A and X: when the two row blocks
    are those rows (`h0`, `h1`) and the weights and the bias are read whole (`h2`, `h3`, `h4`), entry (p, q) of the
    stored value is entry (2000·b + p, q) of the layer. -/
theorem block_eq (A X : FVec Ideal S100000x64 .f32) (WlT WrT : FVec Ideal S64x128 .f32) (B : FVec Ideal S1x128 .f32)
    (x0 x1 : FVec Ideal S2000x64 .bf16) (x2 x3 : FVec Ideal S64x128 .bf16) (x4 : FVec Ideal S1x128 .f32)
    (p : Fin 2000) (q : Fin 128) (r : Fin 100000)
    (h0 : ∀ k : Fin 64, x0 (ix2 p k) = A (ix2 r k)) (h1 : ∀ k : Fin 64, x1 (ix2 p k) = X (ix2 r k))
    (h2 : ∀ k : Fin 64, x2 (ix2 k q) = WlT (ix2 k q)) (h3 : ∀ k : Fin 64, x3 (ix2 k q) = WrT (ix2 k q))
    (h4 : x4 (ix2 0 q) = B (ix2 0 q)) :
    k0_pay1 (F := Ideal) x0 x1 x2 x3 x4 (ix2 p q) = Cert.Bridge.layer0 A X WlT WrT B (ix2 r q) := by
  refine (pay_apply x0 x1 x2 x3 x4 p q).trans ?_
  refine Eq.trans ?_ (layer_apply A X WlT WrT B r q).symm
  rw [Finset.sum_congr rfl (fun k _ => by rw [h0 k, h2 k] : ∀ k ∈ Finset.univ, x0 (ix2 p k) * x2 (ix2 k q) = A (ix2 r k) * WlT (ix2 k q)),
    Finset.sum_congr rfl (fun k _ => by rw [h1 k, h3 k] : ∀ k ∈ Finset.univ, x1 (ix2 p k) * x3 (ix2 k q) = X (ix2 r k) * WrT (ix2 k q)), h4]

end Block
end R0

/-! ## From the blocks to the array -/

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace R0

theorem zero_offsets : (![0, 0] : Fin 2 → Nat) = fun _ => 0 := funext fun a => by fin_cases a <;> rfl

/-- The block indices, decided over the 50 grid points: at point t the two row windows and the output window are at row
    block t, column block 0; the weights and the bias are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is rows 2000·t … 2000·t + 1999 of the layer of the arrays as the region finds them. -/
theorem flushed_eq (c : Dev nD) (t : Fin cfg0.N) :
    (dat0 (F := Ideal) V c).flushed 5 t
      = ((cfg0.win 5).blk t).view.read (Elt Ideal) (Cert.Bridge.layer0 (V c main_v29) (V c main_v30) (V c main_v25) (V c main_v27) (V c main_v28)) := by
  show (cfg0.win 5).cut (grid0.coords t) ((dat0 V c).after 5 t) = _
  rw [after0_5]
  unfold out0_5
  rw [View.canon_unit_zero zero_offsets]
  simp only [View.ld_unit_zero (S := S2000x64) zero_offsets, View.ld_unit_zero (S := S64x128) zero_offsets, View.ld_unit_zero (S := S1x128) zero_offsets]
  obtain ⟨a00, a01, a10, a11, a20, a21, a30, a31, a40, a41, a50, a51⟩ := idx_facts t
  have ht : t.val < 50 := (show t.val < grid0.N from t.isLt).trans_eq N_0
  refine funext fun (j : S2000x128.Idx) => ?_
  obtain ⟨p, q, rfl⟩ : ∃ (p : Fin 2000) (q : Fin 128), j = ix2 p q := ⟨j 0, j 1, eq_ix2 j⟩
  have hp : p.val < 2000 := p.isLt
  -- the array index under entry (p, q) of block t of the output
  have hout : (((cfg0.win 5).blk t).view.emb (ix2 p q) : S100000x128.Idx) = ix2 (⟨t.val * 2000 + p.val, by omega⟩ : Fin 100000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = (Cert.Bridge.layer0 (V c main_v29) (V c main_v30) (V c main_v25) (V c main_v27) (V c main_v28)) (((cfg0.win 5).blk t).view.emb (ix2 p q))
  rw [hout]
  refine block_eq (V c main_v29) (V c main_v30) (V c main_v25) (V c main_v27) (V c main_v28)
    (iblk0 V c 0 t) (iblk0 V c 1 t) (iblk0 V c 2 t) (iblk0 V c 3 t) (iblk0 V c 4 t) p q _ ?_ ?_ ?_ ?_ ?_
  · intro k
    show V c main_v29 (((cfg0.win 0).blk t).view.emb (ix2 p k)) = V c main_v29 _
    refine congrArg (V c main_v29) (funext fun a => Fin.ext ?_)
    match a with
    | ⟨0, _⟩ => show win0_0.index t (0 : Fin 2) * 2000 + 1 * p.val = t.val * 2000 + p.val; omega
    | ⟨1, _⟩ => show win0_0.index t (1 : Fin 2) * 64 + 1 * k.val = k.val; omega
  · intro k
    show V c main_v30 (((cfg0.win 1).blk t).view.emb (ix2 p k)) = V c main_v30 _
    refine congrArg (V c main_v30) (funext fun a => Fin.ext ?_)
    match a with
    | ⟨0, _⟩ => show win0_1.index t (0 : Fin 2) * 2000 + 1 * p.val = t.val * 2000 + p.val; omega
    | ⟨1, _⟩ => show win0_1.index t (1 : Fin 2) * 64 + 1 * k.val = k.val; omega
  · intro k
    show V c main_v25 (((cfg0.win 2).blk t).view.emb (ix2 k q)) = V c main_v25 _
    refine congrArg (V c main_v25) (funext fun a => Fin.ext ?_)
    match a with
    | ⟨0, _⟩ => show win0_2.index t (0 : Fin 2) * 64 + 1 * k.val = k.val; omega
    | ⟨1, _⟩ => show win0_2.index t (1 : Fin 2) * 128 + 1 * q.val = q.val; omega
  · intro k
    show V c main_v27 (((cfg0.win 3).blk t).view.emb (ix2 k q)) = V c main_v27 _
    refine congrArg (V c main_v27) (funext fun a => Fin.ext ?_)
    match a with
    | ⟨0, _⟩ => show win0_3.index t (0 : Fin 2) * 64 + 1 * k.val = k.val; omega
    | ⟨1, _⟩ => show win0_3.index t (1 : Fin 2) * 128 + 1 * q.val = q.val; omega
  · show V c main_v28 (((cfg0.win 4).blk t).view.emb (ix2 0 q)) = V c main_v28 _
    refine congrArg (V c main_v28) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega

/-- An index of the output array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v31).slice (win0_5.rect t)).set ↔ _
  rw [View.set_slice_whole, Rect.mem_set_unit]
  exact Iff.rfl

/-- The 50 blocks of 2000 rows cover the 100000 rows: row r is in the block of point r / 2000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, (show (i 0).val / 2000 < 50 by omega).trans_eq N_0.symm⟩, rfl⟩
  obtain ⟨a00, a01, a10, a11, a20, a21, a30, a31, a40, a41, a50, a51⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

end R0

/-- THE OUTPUT ARRAY OF REGION 0 after the run is the layer of the arrays the region finds. -/
theorem region0_value (c : Dev nD) :
    (dat0 (F := Ideal) V c).arrAt 5 cfg0.N
      = Cert.Bridge.layer0 (V c main_v29) (V c main_v30) (V c main_v25) (V c main_v27) (V c main_v28) :=
  (dat0 (F := Ideal) V c).arrAt_eq_of_cover 5 _ (fun t _ => R0.flushed_eq V c t) R0.cover

end Cert.Bridge.Regions

end
-- ==== Proof.Walk0.lean ====
/-
  The kernel program's buffers from the launch to the exit of its first tiled region.

  Each fact names what one buffer holds at one boundary between the program's segments, as a function of
  the argument arrays: the operations between two boundaries are folded over the earlier boundary's contents,
  and the buffers they read are replaced by the facts already known there. The first region's output array
  is the first layer's combine step of its five input arrays (the region's value), which are what the host
  operations before it leave: the neighbour mean of the node features, the node features, the two transposed
  weight matrices and the bias row.
-/
import proofs.«148430_j64776696758992_1_alg».proof.Proof.Gen.KernelIdeal.Frame
import proofs.«148430_j64776696758992_1_alg».proof.Proof.KernelSpec
import proofs.«148430_j64776696758992_1_alg».proof.Proof.Region0
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Contents moved along a buffer type that holds by computation -/

theorem toBuf_congr {sig : RefSig} {Val : EltTy → Type} {T : BufTy} (x : StableHlo.TRef sig T) (v : T.Contents Val)
    (w : x.ref.ty.Contents Val) (h : HEq v w) : x.toBuf v = w := by
  obtain ⟨r, hty, h2, h3⟩ := x
  subst hty
  exact eq_of_heq h

theorem ofBuf_congr {sig : RefSig} {Val : EltTy → Type} {T : BufTy} (x : StableHlo.TRef sig T) (v : x.ref.ty.Contents Val)
    (w : T.Contents Val) (h : HEq v w) : x.ofBuf v = w := by
  obtain ⟨r, hty, h2, h3⟩ := x
  subst hty
  exact eq_of_heq h

theorem ofBuf_toBuf {sig : RefSig} {Val : EltTy → Type} {T : BufTy} (x : StableHlo.TRef sig T) (v : T.Contents Val) :
    x.ofBuf (x.toBuf v) = v := by
  obtain ⟨r, hty, h2, h3⟩ := x
  subst hty
  rfl

/-! ## After the first stretch of host operations: the edge list's rows and the in-degrees -/

theorem W1_v7 (c : Dev nD) : W1 m ρ c (Proc.devRef .tc main_v7) = Spec.deg (m ((c : Thread nD τ).loc main_arg1)) := by
  show StableHlo.after hostOps0 (W0 m ρ c) (Proc.devRef .tc main_v7) = _
  after_results_simp
  unfold Spec.deg Spec.dst
  rfl

theorem W1_cst_1 (c : Dev nD) : W1 m ρ c (Proc.devRef .tc main_cst_1) = constant (F := Ideal) S_ .f32 0x3F800000#32 := by
  show StableHlo.after hostOps0 (W0 m ρ c) (Proc.devRef .tc main_cst_1) = _
  after_results_simp

/-! ## After the clip: max(1, deg) -/

theorem W2_v8 (c : Dev nD) : W2 m ρ c (Proc.devRef .tc main_v8) = Spec.clip (m ((c : Thread nD τ).loc main_arg1)) := by
  show StableHlo.after hostOps0_1 (W1 m ρ c) (Proc.devRef .tc main_v8) = _
  have h7 := W1_v7 m ρ c
  have hc := W1_cst_1 m ρ c
  generalize W1 m ρ c = U at h7 hc ⊢
  after_results_simp
  rw [h7, hc]
  simp only [ofBuf_toBuf]
  refine toBuf_congr _ _ _ (heq_of_eq ?_)
  unfold Spec.clip
  exact congrArg₂ maximumf (congrArg _ (congrArg id (ofBuf_congr _ _ _ HEq.rfl))) (ofBuf_congr _ _ _ HEq.rfl)

theorem W2_v1 (c : Dev nD) : W2 m ρ c (Proc.devRef .tc main_v1) = Spec.src (m ((c : Thread nD τ).loc main_arg1)) := by
  show StableHlo.after hostOps0_1 (StableHlo.after hostOps0 (W0 m ρ c)) (Proc.devRef .tc main_v1) = _
  after_results_simp <;> rfl

theorem W2_v3 (c : Dev nD) : W2 m ρ c (Proc.devRef .tc main_v3) = Spec.dst (m ((c : Thread nD τ).loc main_arg1)) := by
  show StableHlo.after hostOps0_1 (StableHlo.after hostOps0 (W0 m ρ c)) (Proc.devRef .tc main_v3) = _
  after_results_simp <;> rfl

theorem W2_arg0 (c : Dev nD) : W2 m ρ c (Proc.devRef .tc main_arg0) = (m ((c : Thread nD τ).loc main_arg0)) := by
  show StableHlo.after hostOps0_1 (StableHlo.after hostOps0 (W0 m ρ c)) (Proc.devRef .tc main_arg0) = _
  after_results_simp <;> rfl

theorem W2_arg3 (c : Dev nD) : W2 m ρ c (Proc.devRef .tc main_arg3) = (m ((c : Thread nD τ).loc main_arg3)) := by
  show StableHlo.after hostOps0_1 (StableHlo.after hostOps0 (W0 m ρ c)) (Proc.devRef .tc main_arg3) = _
  after_results_simp <;> rfl

theorem W2_arg4 (c : Dev nD) : W2 m ρ c (Proc.devRef .tc main_arg4) = (m ((c : Thread nD τ).loc main_arg4)) := by
  show StableHlo.after hostOps0_1 (StableHlo.after hostOps0 (W0 m ρ c)) (Proc.devRef .tc main_arg4) = _
  after_results_simp <;> rfl

theorem W2_arg5 (c : Dev nD) : W2 m ρ c (Proc.devRef .tc main_arg5) = (m ((c : Thread nD τ).loc main_arg5)) := by
  show StableHlo.after hostOps0_1 (StableHlo.after hostOps0 (W0 m ρ c)) (Proc.devRef .tc main_arg5) = _
  after_results_simp <;> rfl

/-! ## At the first region's entry -/

theorem W3_v10 (c : Dev nD) : W3 m ρ c (Proc.devRef .tc main_v10) = Spec.dinv (m ((c : Thread nD τ).loc main_arg1)) := by
  show StableHlo.after hostOps0_2 (W2 m ρ c) (Proc.devRef .tc main_v10) = _
  have h0 := W2_v8 m ρ c
  generalize W2 m ρ c = U at h0 ⊢
  after_results_simp
  rw [h0]
  rfl

theorem V3_v29 (c : Dev nD) : V3 m ρ c main_v29 = (truncf .bf16 (Spec.agg64 (m ((c : Thread nD τ).loc main_arg0)) (m ((c : Thread nD τ).loc main_arg1))) Facts₀.bitsLt_bf16_f32 : FVec Ideal S100000x64 .bf16) := by
  show StableHlo.after hostOps0_2 (W2 m ρ c) (Proc.devRef .tc main_v29) = _
  have h0 := W2_v8 m ρ c
  have h1 := W2_v1 m ρ c
  have h2 := W2_v3 m ρ c
  have h3 := W2_arg0 m ρ c
  generalize W2 m ρ c = U at h0 h1 h2 h3 ⊢
  after_results_simp
  rw [h0, h1, h2, h3]
  unfold Spec.agg64 Spec.srcN Spec.dinv
  rfl

theorem V3_v30 (c : Dev nD) : V3 m ρ c main_v30 = (truncf .bf16 ((m ((c : Thread nD τ).loc main_arg0)) : FVec Ideal S100000x64 .f32) Facts₀.bitsLt_bf16_f32 : FVec Ideal S100000x64 .bf16) := by
  show StableHlo.after hostOps0_2 (W2 m ρ c) (Proc.devRef .tc main_v30) = _
  have h0 := W2_arg0 m ρ c
  generalize W2 m ρ c = U at h0 ⊢
  after_results_simp
  rw [h0]

theorem V3_v25 (c : Dev nD) : V3 m ρ c main_v25 = (transpose S64x128 [1, 0] (truncf .bf16 ((m ((c : Thread nD τ).loc main_arg3)) : FVec Ideal S128x64 .f32) Facts₀.bitsLt_bf16_f32) Facts₀.transposes_S128x64_S64x128_1_0 : FVec Ideal S64x128 .bf16) := by
  show StableHlo.after hostOps0_2 (W2 m ρ c) (Proc.devRef .tc main_v25) = _
  have h0 := W2_arg3 m ρ c
  generalize W2 m ρ c = U at h0 ⊢
  after_results_simp
  rw [h0]

theorem V3_v27 (c : Dev nD) : V3 m ρ c main_v27 = (transpose S64x128 [1, 0] (truncf .bf16 ((m ((c : Thread nD τ).loc main_arg4)) : FVec Ideal S128x64 .f32) Facts₀.bitsLt_bf16_f32) Facts₀.transposes_S128x64_S64x128_1_0 : FVec Ideal S64x128 .bf16) := by
  show StableHlo.after hostOps0_2 (W2 m ρ c) (Proc.devRef .tc main_v27) = _
  have h0 := W2_arg4 m ρ c
  generalize W2 m ρ c = U at h0 ⊢
  after_results_simp
  rw [h0]

theorem V3_v28 (c : Dev nD) : V3 m ρ c main_v28 = shapeCast S1x128 (m ((c : Thread nD τ).loc main_arg5)) Facts₀.shapeCasts_S128_S1x128 := by
  show StableHlo.after hostOps0_2 (W2 m ρ c) (Proc.devRef .tc main_v28) = _
  have h0 := W2_arg5 m ρ c
  generalize W2 m ρ c = U at h0 ⊢
  after_results_simp
  rw [h0]
  rfl

theorem W3_v1 (c : Dev nD) : W3 m ρ c (Proc.devRef .tc main_v1) = Spec.src (m ((c : Thread nD τ).loc main_arg1)) := by
  show StableHlo.after hostOps0_2 (StableHlo.after hostOps0_1 (StableHlo.after hostOps0 (W0 m ρ c))) (Proc.devRef .tc main_v1) = _
  after_results_simp <;> rfl

theorem W3_v3 (c : Dev nD) : W3 m ρ c (Proc.devRef .tc main_v3) = Spec.dst (m ((c : Thread nD τ).loc main_arg1)) := by
  show StableHlo.after hostOps0_2 (StableHlo.after hostOps0_1 (StableHlo.after hostOps0 (W0 m ρ c))) (Proc.devRef .tc main_v3) = _
  after_results_simp <;> rfl

theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl

theorem W3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl

theorem W3_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl

theorem W3_arg8 (c : Dev nD) : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl

theorem W3_arg9 (c : Dev nD) : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp <;> rfl

theorem W3_arg10 (c : Dev nD) : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp <;> rfl

theorem W3_arg11 (c : Dev nD) : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  after_results_simp <;> rfl

theorem W3_arg12 (c : Dev nD) : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  after_results_simp <;> rfl

theorem W3_arg13 (c : Dev nD) : W3 m ρ c (Proc.devRef .tc main_arg13) = (m ((c : Thread nD τ).loc main_arg13)) := by
  show StableHlo.after hostOps0_2 (StableHlo.after hostOps0_1 (StableHlo.after hostOps0 (W0 m ρ c))) (Proc.devRef .tc main_arg13) = _
  after_results_simp <;> rfl

theorem W3_arg14 (c : Dev nD) : W3 m ρ c (Proc.devRef .tc main_arg14) = (m ((c : Thread nD τ).loc main_arg14)) := by
  show StableHlo.after hostOps0_2 (StableHlo.after hostOps0_1 (StableHlo.after hostOps0 (W0 m ρ c))) (Proc.devRef .tc main_arg14) = _
  after_results_simp <;> rfl

theorem W3_arg15 (c : Dev nD) : W3 m ρ c (Proc.devRef .tc main_arg15) = (m ((c : Thread nD τ).loc main_arg15)) := by
  show StableHlo.after hostOps0_2 (StableHlo.after hostOps0_1 (StableHlo.after hostOps0 (W0 m ρ c))) (Proc.devRef .tc main_arg15) = _
  after_results_simp <;> rfl

/-! ## At the first region's exit: the first layer -/

theorem W4_v31 (c : Dev nD) : W4 m ρ c (Proc.devRef .tc main_v31) = (Spec.h1 (m ((c : Thread nD τ).loc main_arg0)) (m ((c : Thread nD τ).loc main_arg1)) (m ((c : Thread nD τ).loc main_arg3)) (m ((c : Thread nD τ).loc main_arg4)) (m ((c : Thread nD τ).loc main_arg5))) := by
  refine ((W4_arr m ρ c 5).trans (Cert.Bridge.Regions.region0_value (V3 m ρ) c)).trans ?_
  rw [V3_v29 m ρ c, V3_v30 m ρ c, V3_v25 m ρ c, V3_v27 m ρ c, V3_v28 m ρ c]
  rfl

theorem W4_v1 (c : Dev nD) : W4 m ρ c (Proc.devRef .tc main_v1) = Spec.src (m ((c : Thread nD τ).loc main_arg1)) :=
  (W4_of_ne m ρ c main_v1 (by decide)).trans (W3_v1 m ρ c)

theorem W4_v3 (c : Dev nD) : W4 m ρ c (Proc.devRef .tc main_v3) = Spec.dst (m ((c : Thread nD τ).loc main_arg1)) :=
  (W4_of_ne m ρ c main_v3 (by decide)).trans (W3_v3 m ρ c)

theorem W4_v10 (c : Dev nD) : W4 m ρ c (Proc.devRef .tc main_v10) = Spec.dinv (m ((c : Thread nD τ).loc main_arg1)) :=
  (W4_of_ne m ρ c main_v10 (by decide)).trans (W3_v10 m ρ c)

theorem W4_arg2 (c : Dev nD) : W4 m ρ c (Proc.devRef .tc main_arg2) = (m ((c : Thread nD τ).loc main_arg2)) :=
  (W4_of_ne m ρ c main_arg2 (by decide)).trans (W3_arg2 m ρ c)

theorem W4_arg6 (c : Dev nD) : W4 m ρ c (Proc.devRef .tc main_arg6) = (m ((c : Thread nD τ).loc main_arg6)) :=
  (W4_of_ne m ρ c main_arg6 (by decide)).trans (W3_arg6 m ρ c)

theorem W4_arg7 (c : Dev nD) : W4 m ρ c (Proc.devRef .tc main_arg7) = (m ((c : Thread nD τ).loc main_arg7)) :=
  (W4_of_ne m ρ c main_arg7 (by decide)).trans (W3_arg7 m ρ c)

theorem W4_arg8 (c : Dev nD) : W4 m ρ c (Proc.devRef .tc main_arg8) = (m ((c : Thread nD τ).loc main_arg8)) :=
  (W4_of_ne m ρ c main_arg8 (by decide)).trans (W3_arg8 m ρ c)

theorem W4_arg9 (c : Dev nD) : W4 m ρ c (Proc.devRef .tc main_arg9) = (m ((c : Thread nD τ).loc main_arg9)) :=
  (W4_of_ne m ρ c main_arg9 (by decide)).trans (W3_arg9 m ρ c)

theorem W4_arg10 (c : Dev nD) : W4 m ρ c (Proc.devRef .tc main_arg10) = (m ((c : Thread nD τ).loc main_arg10)) :=
  (W4_of_ne m ρ c main_arg10 (by decide)).trans (W3_arg10 m ρ c)

theorem W4_arg11 (c : Dev nD) : W4 m ρ c (Proc.devRef .tc main_arg11) = (m ((c : Thread nD τ).loc main_arg11)) :=
  (W4_of_ne m ρ c main_arg11 (by decide)).trans (W3_arg11 m ρ c)

theorem W4_arg12 (c : Dev nD) : W4 m ρ c (Proc.devRef .tc main_arg12) = (m ((c : Thread nD τ).loc main_arg12)) :=
  (W4_of_ne m ρ c main_arg12 (by decide)).trans (W3_arg12 m ρ c)

theorem W4_arg13 (c : Dev nD) : W4 m ρ c (Proc.devRef .tc main_arg13) = (m ((c : Thread nD τ).loc main_arg13)) :=
  (W4_of_ne m ρ c main_arg13 (by decide)).trans (W3_arg13 m ρ c)

theorem W4_arg14 (c : Dev nD) : W4 m ρ c (Proc.devRef .tc main_arg14) = (m ((c : Thread nD τ).loc main_arg14)) :=
  (W4_of_ne m ρ c main_arg14 (by decide)).trans (W3_arg14 m ρ c)

theorem W4_arg15 (c : Dev nD) : W4 m ρ c (Proc.devRef .tc main_arg15) = (m ((c : Thread nD τ).loc main_arg15)) :=
  (W4_of_ne m ρ c main_arg15 (by decide)).trans (W3_arg15 m ρ c)

end Cert.KernelIdeal.Walk

end
-- ==== Proof.Region1.lean ====
/-
  What SAGE combine region 1 leaves in its output array: max(A · WlT + X · WrT + B, 0) on whole arrays.

  The region computes 2000 rows at a time: at grid point t it reads rows 2000·t … 2000·t + 1999 of the aggregated
  features A and of the node features X, the two 128 × 128 weight matrices and the 1 × 128 bias row whole, and
  writes the same rows of the output. Entry (p, q) of what it writes is
      (Σ_k A[2000·t + p, k] · WlT[k, q]) + (Σ_k X[2000·t + p, k] · WrT[k, q]) + B[0, q], followed by max(·, 0),
  which is entry (2000·t + p, q) of the whole-array layer: a row of a matrix product depends on that row of the left
  factor only. The 50 blocks of 2000 rows tile the 100000 rows, so the array ends holding the layer.
-/
import proofs.«148430_j64776696758992_1_alg».proof.Proof.Gen.KernelIdeal.Frame
import proofs.«148430_j64776696758992_1_alg».proof.Proof.Layers
import Idealize.ShloMosaic.Lib.Pipeline.Value
import Idealize.ShloMosaic.Lib.ValueIdx
import Idealize.ShloMosaic.PureOps.Ideal.Laws

noncomputable section

namespace Cert.Bridge.Regions

/-! ## The whole-array layer at an index (the host's operations) -/

namespace R1
section Host
open Idealize.ShloMosaic Idealize.ShloMosaic.ValueIdx
open Cert.ReferenceIdeal Cert.ReferenceIdeal.Facts₀ Cert.ReferenceIdeal.Facts

/-! The operand indices of the 100000 × 128 by 128 × 128 product at output index i and contraction index κ:
    (i₀, κ) on the left and (κ, i₁) on the right. -/

theorem arr_lhs0 (i : S100000x128.Idx) (κ : dot_S100000x128_S128x128_S100000x128_1_0_0_1_n_n.contr.Idx) : (dot_S100000x128_S128x128_S100000x128_1_0_0_1_n_n.lhsIdx i κ 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem arr_lhs1 (i : S100000x128.Idx) (κ : dot_S100000x128_S128x128_S100000x128_1_0_0_1_n_n.contr.Idx) : (dot_S100000x128_S128x128_S100000x128_1_0_0_1_n_n.lhsIdx i κ 1).val = (κ ⟨0, by decide⟩).val :=
  dot_S100000x128_S128x128_S100000x128_1_0_0_1_n_n.lhsIdx_val_of_single rfl i κ
theorem arr_rhs0 (i : S100000x128.Idx) (κ : dot_S100000x128_S128x128_S100000x128_1_0_0_1_n_n.contr.Idx) : (dot_S100000x128_S128x128_S100000x128_1_0_0_1_n_n.rhsIdx i κ 0).val = (κ ⟨0, by decide⟩).val :=
  dot_S100000x128_S128x128_S100000x128_1_0_0_1_n_n.rhsIdx_val_of_single rfl i κ
theorem arr_rhs1 (i : S100000x128.Idx) (κ : dot_S100000x128_S128x128_S100000x128_1_0_0_1_n_n.contr.Idx) : (dot_S100000x128_S128x128_S100000x128_1_0_0_1_n_n.rhsIdx i κ 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The whole 100000 × 128 array times a 128 × 128 matrix, read at (p, q): Σ_k a[p,k] · w[k,q]. -/
theorem arr_dot_apply (a : FVec Ideal S100000x128 .f32) (w : FVec Ideal S128x128 .f32) (p : Fin 100000) (q : Fin 128) :
    (Host.dotGeneral (F := Ideal) dot_S100000x128_S128x128_S100000x128_1_0_0_1_n_n none a w : FVec Ideal S100000x128 .f32) (ix2 p q)
      = (∑ k : Fin 128, a (ix2 p k) * w (ix2 k q) : EReal) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact arr_lhs0 _ _
    | ⟨1, _⟩ => exact (arr_lhs1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (arr_rhs0 _ _).trans hk
    | ⟨1, _⟩ => exact arr_rhs1 _ _)
  rw [el, er]

/-- The layer at entry (r, q). -/
theorem layer_apply (A X : FVec Ideal S100000x128 .f32) (WlT WrT : FVec Ideal S128x128 .f32) (B : FVec Ideal S1x128 .f32)
    (r : Fin 100000) (q : Fin 128) :
    Cert.Bridge.layer1 A X WlT WrT B (ix2 r q)
      = (max (((∑ k : Fin 128, A (ix2 r k) * WlT (ix2 k q)) + (∑ k : Fin 128, X (ix2 r k) * WrT (ix2 k q))) + B (ix2 0 q)) (Ideal.ofBits .f32 0x00000000#32) : EReal) := by
  unfold Cert.Bridge.layer1
  rw [maximumf_apply, addf_apply, addf_apply, arr_dot_apply, arr_dot_apply]
  refine congrArg₂ max (congrArg₂ (· + ·) rfl ?_) rfl
  exact broadcastInDim_apply _ _ B (ix2 r q) (ix2 0 q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])

end Host

/-! ## One block of 2000 rows (the kernel's operations) -/

section Block
open Cert.KernelIdeal Cert.KernelIdeal.Gen Idealize.ShloMosaic Idealize.ShloMosaic.TcCoe Idealize.SL.Sem
open Idealize.ShloMosaic.ValueIdx

/-! The operand indices of the 2000 × 128 by 128 × 128 product, as above. -/

theorem blk_lhs0 (i : S2000x128.Idx) (κ : dot_S2000x128_S128x128_S2000x128_1_0_0_1_n_n.contr.Idx) : (dot_S2000x128_S128x128_S2000x128_1_0_0_1_n_n.lhsIdx i κ 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blk_lhs1 (i : S2000x128.Idx) (κ : dot_S2000x128_S128x128_S2000x128_1_0_0_1_n_n.contr.Idx) : (dot_S2000x128_S128x128_S2000x128_1_0_0_1_n_n.lhsIdx i κ 1).val = (κ ⟨0, by decide⟩).val :=
  dot_S2000x128_S128x128_S2000x128_1_0_0_1_n_n.lhsIdx_val_of_single rfl i κ
theorem blk_rhs0 (i : S2000x128.Idx) (κ : dot_S2000x128_S128x128_S2000x128_1_0_0_1_n_n.contr.Idx) : (dot_S2000x128_S128x128_S2000x128_1_0_0_1_n_n.rhsIdx i κ 0).val = (κ ⟨0, by decide⟩).val :=
  dot_S2000x128_S128x128_S2000x128_1_0_0_1_n_n.rhsIdx_val_of_single rfl i κ
theorem blk_rhs1 (i : S2000x128.Idx) (κ : dot_S2000x128_S128x128_S2000x128_1_0_0_1_n_n.contr.Idx) : (dot_S2000x128_S128x128_S2000x128_1_0_0_1_n_n.rhsIdx i κ 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 × 128 block times a 128 × 128 matrix, accumulated into zero, read at (p, q): Σ_k a[p,k] · w[k,q]. -/
theorem blk_matmul_apply (a : FVec Ideal S2000x128 .bf16) (w : FVec Ideal S128x128 .bf16) (p : Fin 2000) (q : Fin 128) :
    (matmul (F := Ideal) dot_S2000x128_S128x128_S2000x128_1_0_0_1_n_n none a w (constant (F := Ideal) S2000x128 .f32 0x00000000#32) : FVec Ideal S2000x128 .f32) (ix2 p q)
      = (∑ k : Fin 128, a (ix2 p k) * w (ix2 k q) : EReal) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact blk_lhs0 _ _
    | ⟨1, _⟩ => exact (blk_lhs1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (blk_rhs0 _ _).trans hk
    | ⟨1, _⟩ => exact blk_rhs1 _ _)
  rw [el, er]

/-- The stored value as one expression of the five loaded blocks. -/
theorem pay_eq (x0 x1 : FVec Ideal S2000x128 .bf16) (x2 x3 : FVec Ideal S128x128 .bf16) (x4 : FVec Ideal S1x128 .f32) :
    k1_pay1 (F := Ideal) x0 x1 x2 x3 x4
      = maximumf (addf (addf (matmul dot_S2000x128_S128x128_S2000x128_1_0_0_1_n_n none (shapeCast S2000x128 x0 shapeCasts_S2000x128_S2000x128) (shapeCast S128x128 x2 shapeCasts_S128x128_S128x128) (constant S2000x128 .f32 0x00000000#32)) (matmul dot_S2000x128_S128x128_S2000x128_1_0_0_1_n_n none (shapeCast S2000x128 x1 shapeCasts_S2000x128_S2000x128) (shapeCast S128x128 x3 shapeCasts_S128x128_S128x128) (constant S2000x128 .f32 0x00000000#32))) (broadcastTo S2000x128 (shapeCast S1x128 x4 shapeCasts_S1x128_S1x128) broadcasts_S1x128_S2000x128)) (broadcast S2000x128 (Scalar.ofBits .f32 0x00000000#32)) := rfl

/-- The stored value at entry (p, q) of the block. -/
theorem pay_apply (x0 x1 : FVec Ideal S2000x128 .bf16) (x2 x3 : FVec Ideal S128x128 .bf16) (x4 : FVec Ideal S1x128 .f32)
    (p : Fin 2000) (q : Fin 128) :
    k1_pay1 (F := Ideal) x0 x1 x2 x3 x4 (ix2 p q)
      = (max (((∑ k : Fin 128, x0 (ix2 p k) * x2 (ix2 k q)) + (∑ k : Fin 128, x1 (ix2 p k) * x3 (ix2 k q))) + x4 (ix2 0 q)) (Ideal.ofBits .f32 0x00000000#32) : EReal) := by
  rw [pay_eq]
  simp only [shapeCast_self]
  rw [maximumf_apply, addf_apply, addf_apply, blk_matmul_apply, blk_matmul_apply]
  refine congrArg₂ max (congrArg₂ (· + ·) rfl ?_) rfl
  exact broadcastTo_apply x4 broadcasts_S1x128_S2000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- ROWS 2000·b … 2000·b + 1999 OF THE LAYER are the block computation on those rows of A and X: when the two row blocks
    are those rows (`h0`, `h1`) and the weights and the bias are read whole (`h2`, `h3`, `h4`), entry (p, q) of the
    stored value is entry (2000·b + p, q) of the layer. -/
theorem block_eq (A X : FVec Ideal S100000x128 .f32) (WlT WrT : FVec Ideal S128x128 .f32) (B : FVec Ideal S1x128 .f32)
    (x0 x1 : FVec Ideal S2000x128 .bf16) (x2 x3 : FVec Ideal S128x128 .bf16) (x4 : FVec Ideal S1x128 .f32)
    (p : Fin 2000) (q : Fin 128) (r : Fin 100000)
    (h0 : ∀ k : Fin 128, x0 (ix2 p k) = A (ix2 r k)) (h1 : ∀ k : Fin 128, x1 (ix2 p k) = X (ix2 r k))
    (h2 : ∀ k : Fin 128, x2 (ix2 k q) = WlT (ix2 k q)) (h3 : ∀ k : Fin 128, x3 (ix2 k q) = WrT (ix2 k q))
    (h4 : x4 (ix2 0 q) = B (ix2 0 q)) :
    k1_pay1 (F := Ideal) x0 x1 x2 x3 x4 (ix2 p q) = Cert.Bridge.layer1 A X WlT WrT B (ix2 r q) := by
  refine (pay_apply x0 x1 x2 x3 x4 p q).trans ?_
  refine Eq.trans ?_ (layer_apply A X WlT WrT B r q).symm
  rw [Finset.sum_congr rfl (fun k _ => by rw [h0 k, h2 k] : ∀ k ∈ Finset.univ, x0 (ix2 p k) * x2 (ix2 k q) = A (ix2 r k) * WlT (ix2 k q)),
    Finset.sum_congr rfl (fun k _ => by rw [h1 k, h3 k] : ∀ k ∈ Finset.univ, x1 (ix2 p k) * x3 (ix2 k q) = X (ix2 r k) * WrT (ix2 k q)), h4]

end Block
end R1

/-! ## From the blocks to the array -/

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace R1

theorem zero_offsets : (![0, 0] : Fin 2 → Nat) = fun _ => 0 := funext fun a => by fin_cases a <;> rfl

/-- The block indices, decided over the 50 grid points: at point t the two row windows and the output window are at row
    block t, column block 0; the weights and the bias are at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is rows 2000·t … 2000·t + 1999 of the layer of the arrays as the region finds them. -/
theorem flushed_eq (c : Dev nD) (t : Fin cfg1.N) :
    (dat1 (F := Ideal) V c).flushed 5 t
      = ((cfg1.win 5).blk t).view.read (Elt Ideal) (Cert.Bridge.layer1 (V c main_v50) (V c main_v51) (V c main_v46) (V c main_v48) (V c main_v49)) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x128) zero_offsets, View.ld_unit_zero (S := S1x128) zero_offsets]
  obtain ⟨a00, a01, a10, a11, a20, a21, a30, a31, a40, a41, a50, a51⟩ := idx_facts t
  have ht : t.val < 50 := (show t.val < grid1.N from t.isLt).trans_eq N_1
  refine funext fun (j : S2000x128.Idx) => ?_
  obtain ⟨p, q, rfl⟩ : ∃ (p : Fin 2000) (q : Fin 128), j = ix2 p q := ⟨j 0, j 1, eq_ix2 j⟩
  have hp : p.val < 2000 := p.isLt
  -- the array index under entry (p, q) of block t of the output
  have hout : (((cfg1.win 5).blk t).view.emb (ix2 p q) : S100000x128.Idx) = ix2 (⟨t.val * 2000 + p.val, by omega⟩ : Fin 100000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = (Cert.Bridge.layer1 (V c main_v50) (V c main_v51) (V c main_v46) (V c main_v48) (V c main_v49)) (((cfg1.win 5).blk t).view.emb (ix2 p q))
  rw [hout]
  refine block_eq (V c main_v50) (V c main_v51) (V c main_v46) (V c main_v48) (V c main_v49)
    (iblk1 V c 0 t) (iblk1 V c 1 t) (iblk1 V c 2 t) (iblk1 V c 3 t) (iblk1 V c 4 t) p q _ ?_ ?_ ?_ ?_ ?_
  · intro k
    show V c main_v50 (((cfg1.win 0).blk t).view.emb (ix2 p k)) = V c main_v50 _
    refine congrArg (V c main_v50) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · intro k
    show V c main_v51 (((cfg1.win 1).blk t).view.emb (ix2 p k)) = V c main_v51 _
    refine congrArg (V c main_v51) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  · intro k
    show V c main_v46 (((cfg1.win 2).blk t).view.emb (ix2 k q)) = V c main_v46 _
    refine congrArg (V c main_v46) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro k
    show V c main_v48 (((cfg1.win 3).blk t).view.emb (ix2 k q)) = V c main_v48 _
    refine congrArg (V c main_v48) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · show V c main_v49 (((cfg1.win 4).blk t).view.emb (ix2 0 q)) = V c main_v49 _
    refine congrArg (V c main_v49) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- An index of the output array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v52).slice (win1_5.rect t)).set ↔ _
  rw [View.set_slice_whole, Rect.mem_set_unit]
  exact Iff.rfl

/-- The 50 blocks of 2000 rows cover the 100000 rows: row r is in the block of point r / 2000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, (show (i 0).val / 2000 < 50 by omega).trans_eq N_1.symm⟩, rfl⟩
  obtain ⟨a00, a01, a10, a11, a20, a21, a30, a31, a40, a41, a50, a51⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

end R1

/-- THE OUTPUT ARRAY OF REGION 1 after the run is the layer of the arrays the region finds. -/
theorem region1_value (c : Dev nD) :
    (dat1 (F := Ideal) V c).arrAt 5 cfg1.N
      = Cert.Bridge.layer1 (V c main_v50) (V c main_v51) (V c main_v46) (V c main_v48) (V c main_v49) :=
  (dat1 (F := Ideal) V c).arrAt_eq_of_cover 5 _ (fun t _ => R1.flushed_eq V c t) R1.cover

end Cert.Bridge.Regions

end
-- ==== Proof.Walk1.lean ====
/-
  The kernel program's buffers from the first region's exit to the second region's exit: the host
  operations between them gather the first layer's rows along the edges, add them up per destination and
  scale by 1 / max(1, deg) — the neighbour mean of the first layer —, and the second region is the second
  layer's combine step of that mean, the first layer, the two transposed weight matrices and the bias row.
-/
import proofs.«148430_j64776696758992_1_alg».proof.Proof.Walk0
import proofs.«148430_j64776696758992_1_alg».proof.Proof.Region1
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the second region's entry -/

theorem V5_v50 (c : Dev nD) : V5 m ρ c main_v50 = (truncf .bf16 (Spec.agg128 (Spec.h1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1))) Facts₀.bitsLt_bf16_f32 : FVec Ideal S100000x128 .bf16) := by
  show StableHlo.after hostOps1 (W4 m ρ c) (Proc.devRef .tc main_v50) = _
  have h0 := W4_v31 m ρ c
  have h1 := W4_v1 m ρ c
  have h2 := W4_v3 m ρ c
  have h3 := W4_v10 m ρ c
  generalize W4 m ρ c = U at h0 h1 h2 h3 ⊢
  after_results_simp
  rw [h0, h1, h2, h3]
  unfold Spec.agg128 Spec.srcN
  rfl

theorem V5_v51 (c : Dev nD) : V5 m ρ c main_v51 = (truncf .bf16 (Spec.h1 (m ((c : Thread nD τ).loc main_arg0)) (m ((c : Thread nD τ).loc main_arg1)) (m ((c : Thread nD τ).loc main_arg3)) (m ((c : Thread nD τ).loc main_arg4)) (m ((c : Thread nD τ).loc main_arg5))) Facts₀.bitsLt_bf16_f32 : FVec Ideal S100000x128 .bf16) := by
  show StableHlo.after hostOps1 (W4 m ρ c) (Proc.devRef .tc main_v51) = _
  have h0 := W4_v31 m ρ c
  generalize W4 m ρ c = U at h0 ⊢
  after_results_simp
  rw [h0]

theorem V5_v46 (c : Dev nD) : V5 m ρ c main_v46 = (transpose S128x128 [1, 0] (truncf .bf16 ((m ((c : Thread nD τ).loc main_arg6)) : FVec Ideal S128x128 .f32) Facts₀.bitsLt_bf16_f32) Facts₀.transposes_S128x128_S128x128_1_0 : FVec Ideal S128x128 .bf16) := by
  show StableHlo.after hostOps1 (W4 m ρ c) (Proc.devRef .tc main_v46) = _
  have h0 := W4_arg6 m ρ c
  generalize W4 m ρ c = U at h0 ⊢
  after_results_simp
  rw [h0]

theorem V5_v48 (c : Dev nD) : V5 m ρ c main_v48 = (transpose S128x128 [1, 0] (truncf .bf16 ((m ((c : Thread nD τ).loc main_arg7)) : FVec Ideal S128x128 .f32) Facts₀.bitsLt_bf16_f32) Facts₀.transposes_S128x128_S128x128_1_0 : FVec Ideal S128x128 .bf16) := by
  show StableHlo.after hostOps1 (W4 m ρ c) (Proc.devRef .tc main_v48) = _
  have h0 := W4_arg7 m ρ c
  generalize W4 m ρ c = U at h0 ⊢
  after_results_simp
  rw [h0]

theorem V5_v49 (c : Dev nD) : V5 m ρ c main_v49 = shapeCast S1x128 (m ((c : Thread nD τ).loc main_arg8)) Facts₀.shapeCasts_S128_S1x128 := by
  show StableHlo.after hostOps1 (W4 m ρ c) (Proc.devRef .tc main_v49) = _
  have h0 := W4_arg8 m ρ c
  generalize W4 m ρ c = U at h0 ⊢
  after_results_simp
  rw [h0]
  rfl

/-! ## At the second region's exit: the second layer -/

theorem W6_v52 (c : Dev nD) : W6 m ρ c (Proc.devRef .tc main_v52) = (Spec.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine ((W6_arr m ρ c 5).trans (Cert.Bridge.Regions.region1_value (V5 m ρ) c)).trans ?_
  rw [V5_v50 m ρ c, V5_v51 m ρ c, V5_v46 m ρ c, V5_v48 m ρ c, V5_v49 m ρ c]
  rfl

theorem W6_v1 (c : Dev nD) : W6 m ρ c (Proc.devRef .tc main_v1) = Spec.src (m ((c : Thread nD τ).loc main_arg1)) := by
  refine (W6_of_ne m ρ c main_v1 (by decide)).trans ?_
  show StableHlo.after hostOps1 (W4 m ρ c) (Proc.devRef .tc main_v1) = _
  have h0 := W4_v1 m ρ c
  generalize W4 m ρ c = U at h0 ⊢
  after_results_simp
  exact h0

theorem W6_v3 (c : Dev nD) : W6 m ρ c (Proc.devRef .tc main_v3) = Spec.dst (m ((c : Thread nD τ).loc main_arg1)) := by
  refine (W6_of_ne m ρ c main_v3 (by decide)).trans ?_
  show StableHlo.after hostOps1 (W4 m ρ c) (Proc.devRef .tc main_v3) = _
  have h0 := W4_v3 m ρ c
  generalize W4 m ρ c = U at h0 ⊢
  after_results_simp
  exact h0

theorem W6_v10 (c : Dev nD) : W6 m ρ c (Proc.devRef .tc main_v10) = Spec.dinv (m ((c : Thread nD τ).loc main_arg1)) := by
  refine (W6_of_ne m ρ c main_v10 (by decide)).trans ?_
  show StableHlo.after hostOps1 (W4 m ρ c) (Proc.devRef .tc main_v10) = _
  have h0 := W4_v10 m ρ c
  generalize W4 m ρ c = U at h0 ⊢
  after_results_simp
  exact h0

theorem W6_arg2 (c : Dev nD) : W6 m ρ c (Proc.devRef .tc main_arg2) = (m ((c : Thread nD τ).loc main_arg2)) := by
  refine (W6_of_ne m ρ c main_arg2 (by decide)).trans ?_
  show StableHlo.after hostOps1 (W4 m ρ c) (Proc.devRef .tc main_arg2) = _
  have h0 := W4_arg2 m ρ c
  generalize W4 m ρ c = U at h0 ⊢
  after_results_simp
  exact h0

theorem W6_arg9 (c : Dev nD) : W6 m ρ c (Proc.devRef .tc main_arg9) = (m ((c : Thread nD τ).loc main_arg9)) := by
  refine (W6_of_ne m ρ c main_arg9 (by decide)).trans ?_
  show StableHlo.after hostOps1 (W4 m ρ c) (Proc.devRef .tc main_arg9) = _
  have h0 := W4_arg9 m ρ c
  generalize W4 m ρ c = U at h0 ⊢
  after_results_simp
  exact h0

theorem W6_arg10 (c : Dev nD) : W6 m ρ c (Proc.devRef .tc main_arg10) = (m ((c : Thread nD τ).loc main_arg10)) := by
  refine (W6_of_ne m ρ c main_arg10 (by decide)).trans ?_
  show StableHlo.after hostOps1 (W4 m ρ c) (Proc.devRef .tc main_arg10) = _
  have h0 := W4_arg10 m ρ c
  generalize W4 m ρ c = U at h0 ⊢
  after_results_simp
  exact h0

theorem W6_arg11 (c : Dev nD) : W6 m ρ c (Proc.devRef .tc main_arg11) = (m ((c : Thread nD τ).loc main_arg11)) := by
  refine (W6_of_ne m ρ c main_arg11 (by decide)).trans ?_
  show StableHlo.after hostOps1 (W4 m ρ c) (Proc.devRef .tc main_arg11) = _
  have h0 := W4_arg11 m ρ c
  generalize W4 m ρ c = U at h0 ⊢
  after_results_simp
  exact h0

theorem W6_arg12 (c : Dev nD) : W6 m ρ c (Proc.devRef .tc main_arg12) = (m ((c : Thread nD τ).loc main_arg12)) := by
  refine (W6_of_ne m ρ c main_arg12 (by decide)).trans ?_
  show StableHlo.after hostOps1 (W4 m ρ c) (Proc.devRef .tc main_arg12) = _
  have h0 := W4_arg12 m ρ c
  generalize W4 m ρ c = U at h0 ⊢
  after_results_simp
  exact h0

theorem W6_arg13 (c : Dev nD) : W6 m ρ c (Proc.devRef .tc main_arg13) = (m ((c : Thread nD τ).loc main_arg13)) := by
  refine (W6_of_ne m ρ c main_arg13 (by decide)).trans ?_
  show StableHlo.after hostOps1 (W4 m ρ c) (Proc.devRef .tc main_arg13) = _
  have h0 := W4_arg13 m ρ c
  generalize W4 m ρ c = U at h0 ⊢
  after_results_simp
  exact h0

theorem W6_arg14 (c : Dev nD) : W6 m ρ c (Proc.devRef .tc main_arg14) = (m ((c : Thread nD τ).loc main_arg14)) := by
  refine (W6_of_ne m ρ c main_arg14 (by decide)).trans ?_
  show StableHlo.after hostOps1 (W4 m ρ c) (Proc.devRef .tc main_arg14) = _
  have h0 := W4_arg14 m ρ c
  generalize W4 m ρ c = U at h0 ⊢
  after_results_simp
  exact h0

theorem W6_arg15 (c : Dev nD) : W6 m ρ c (Proc.devRef .tc main_arg15) = (m ((c : Thread nD τ).loc main_arg15)) := by
  refine (W6_of_ne m ρ c main_arg15 (by decide)).trans ?_
  show StableHlo.after hostOps1 (W4 m ρ c) (Proc.devRef .tc main_arg15) = _
  have h0 := W4_arg15 m ρ c
  generalize W4 m ρ c = U at h0 ⊢
  after_results_simp
  exact h0

end Cert.KernelIdeal.Walk

end
-- ==== Proof.Region2.lean ====
/-
  What SAGE combine region 2 leaves in its output array: A · WlT + X · WrT + B on whole arrays.

  The region computes 2000 rows at a time: at grid point t it reads rows 2000·t … 2000·t + 1999 of the aggregated
  features A and of the node features X, the two 128 × 64 weight matrices and the 1 × 64 bias row whole, and
  writes the same rows of the output. Entry (p, q) of what it writes is
      (Σ_k A[2000·t + p, k] · WlT[k, q]) + (Σ_k X[2000·t + p, k] · WrT[k, q]) + B[0, q],
  which is entry (2000·t + p, q) of the whole-array layer: a row of a matrix product depends on that row of the left
  factor only. The 50 blocks of 2000 rows tile the 100000 rows, so the array ends holding the layer.
-/
import proofs.«148430_j64776696758992_1_alg».proof.Proof.Gen.KernelIdeal.Frame
import proofs.«148430_j64776696758992_1_alg».proof.Proof.Layers
import Idealize.ShloMosaic.Lib.Pipeline.Value
import Idealize.ShloMosaic.Lib.ValueIdx
import Idealize.ShloMosaic.PureOps.Ideal.Laws

noncomputable section

namespace Cert.Bridge.Regions

/-! ## The whole-array layer at an index (the host's operations) -/

namespace R2
section Host
open Idealize.ShloMosaic Idealize.ShloMosaic.ValueIdx
open Cert.ReferenceIdeal Cert.ReferenceIdeal.Facts₀ Cert.ReferenceIdeal.Facts

/-! The operand indices of the 100000 × 128 by 128 × 64 product at output index i and contraction index κ:
    (i₀, κ) on the left and (κ, i₁) on the right. -/

theorem arr_lhs0 (i : S100000x64.Idx) (κ : dot_S100000x128_S128x64_S100000x64_1_0_0_1_n_n.contr.Idx) : (dot_S100000x128_S128x64_S100000x64_1_0_0_1_n_n.lhsIdx i κ 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem arr_lhs1 (i : S100000x64.Idx) (κ : dot_S100000x128_S128x64_S100000x64_1_0_0_1_n_n.contr.Idx) : (dot_S100000x128_S128x64_S100000x64_1_0_0_1_n_n.lhsIdx i κ 1).val = (κ ⟨0, by decide⟩).val :=
  dot_S100000x128_S128x64_S100000x64_1_0_0_1_n_n.lhsIdx_val_of_single rfl i κ
theorem arr_rhs0 (i : S100000x64.Idx) (κ : dot_S100000x128_S128x64_S100000x64_1_0_0_1_n_n.contr.Idx) : (dot_S100000x128_S128x64_S100000x64_1_0_0_1_n_n.rhsIdx i κ 0).val = (κ ⟨0, by decide⟩).val :=
  dot_S100000x128_S128x64_S100000x64_1_0_0_1_n_n.rhsIdx_val_of_single rfl i κ
theorem arr_rhs1 (i : S100000x64.Idx) (κ : dot_S100000x128_S128x64_S100000x64_1_0_0_1_n_n.contr.Idx) : (dot_S100000x128_S128x64_S100000x64_1_0_0_1_n_n.rhsIdx i κ 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The whole 100000 × 128 array times a 128 × 64 matrix, read at (p, q): Σ_k a[p,k] · w[k,q]. -/
theorem arr_dot_apply (a : FVec Ideal S100000x128 .f32) (w : FVec Ideal S128x64 .f32) (p : Fin 100000) (q : Fin 64) :
    (Host.dotGeneral (F := Ideal) dot_S100000x128_S128x64_S100000x64_1_0_0_1_n_n none a w : FVec Ideal S100000x64 .f32) (ix2 p q)
      = (∑ k : Fin 128, a (ix2 p k) * w (ix2 k q) : EReal) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 p q) ((ValueIdx.contrEquiv1 dot_S100000x128_S128x64_S100000x64_1_0_0_1_n_n 128 rfl rfl).symm k) = ix2 p k := funext fun a => Fin.ext (by
    match a with
    | ⟨0, _⟩ => exact arr_lhs0 _ _
    | ⟨1, _⟩ => exact (arr_lhs1 _ _).trans hk)
  have er : dot_S100000x128_S128x64_S100000x64_1_0_0_1_n_n.rhsIdx (ix2 p q) ((ValueIdx.contrEquiv1 dot_S100000x128_S128x64_S100000x64_1_0_0_1_n_n 128 rfl rfl).symm k) = ix2 k q := funext fun a => Fin.ext (by
    match a with
    | ⟨0, _⟩ => exact (arr_rhs0 _ _).trans hk
    | ⟨1, _⟩ => exact arr_rhs1 _ _)
  rw [el, er]

/-- The layer at entry (r, q). -/
theorem layer_apply (A X : FVec Ideal S100000x128 .f32) (WlT WrT : FVec Ideal S128x64 .f32) (B : FVec Ideal S1x64 .f32)
    (r : Fin 100000) (q : Fin 64) :
    Cert.Bridge.layer2 A X WlT WrT B (ix2 r q)
      = (((∑ k : Fin 128, A (ix2 r k) * WlT (ix2 k q)) + (∑ k : Fin 128, X (ix2 r k) * WrT (ix2 k q))) + B (ix2 0 q) : EReal) := by
  unfold Cert.Bridge.layer2
  rw [addf_apply, addf_apply, arr_dot_apply, arr_dot_apply]
  refine congrArg₂ (· + ·) rfl ?_
  exact broadcastInDim_apply _ _ B (ix2 r q) (ix2 0 q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])

end Host

/-! ## One block of 2000 rows (the kernel's operations) -/

section Block
open Cert.KernelIdeal Cert.KernelIdeal.Gen Idealize.ShloMosaic Idealize.ShloMosaic.TcCoe Idealize.SL.Sem
open Idealize.ShloMosaic.ValueIdx

/-! The operand indices of the 2000 × 128 by 128 × 64 product, as above. -/

theorem blk_lhs0 (i : S2000x64.Idx) (κ : dot_S2000x128_S128x64_S2000x64_1_0_0_1_n_n.contr.Idx) : (dot_S2000x128_S128x64_S2000x64_1_0_0_1_n_n.lhsIdx i κ 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem blk_lhs1 (i : S2000x64.Idx) (κ : dot_S2000x128_S128x64_S2000x64_1_0_0_1_n_n.contr.Idx) : (dot_S2000x128_S128x64_S2000x64_1_0_0_1_n_n.lhsIdx i κ 1).val = (κ ⟨0, by decide⟩).val :=
  dot_S2000x128_S128x64_S2000x64_1_0_0_1_n_n.lhsIdx_val_of_single rfl i κ
theorem blk_rhs0 (i : S2000x64.Idx) (κ : dot_S2000x128_S128x64_S2000x64_1_0_0_1_n_n.contr.Idx) : (dot_S2000x128_S128x64_S2000x64_1_0_0_1_n_n.rhsIdx i κ 0).val = (κ ⟨0, by decide⟩).val :=
  dot_S2000x128_S128x64_S2000x64_1_0_0_1_n_n.rhsIdx_val_of_single rfl i κ
theorem blk_rhs1 (i : S2000x64.Idx) (κ : dot_S2000x128_S128x64_S2000x64_1_0_0_1_n_n.contr.Idx) : (dot_S2000x128_S128x64_S2000x64_1_0_0_1_n_n.rhsIdx i κ 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A 2000 × 128 block times a 128 × 64 matrix, accumulated into zero, read at (p, q): Σ_k a[p,k] · w[k,q]. -/
theorem blk_matmul_apply (a : FVec Ideal S2000x128 .bf16) (w : FVec Ideal S128x64 .bf16) (p : Fin 2000) (q : Fin 64) :
    (matmul (F := Ideal) dot_S2000x128_S128x64_S2000x64_1_0_0_1_n_n none a w (constant (F := Ideal) S2000x64 .f32 0x00000000#32) : FVec Ideal S2000x64 .f32) (ix2 p q)
      = (∑ k : Fin 128, a (ix2 p k) * w (ix2 k q) : EReal) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact blk_lhs0 _ _
    | ⟨1, _⟩ => exact (blk_lhs1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (blk_rhs0 _ _).trans hk
    | ⟨1, _⟩ => exact blk_rhs1 _ _)
  rw [el, er]

/-- The stored value as one expression of the five loaded blocks. -/
theorem pay_eq (x0 x1 : FVec Ideal S2000x128 .bf16) (x2 x3 : FVec Ideal S128x64 .bf16) (x4 : FVec Ideal S1x64 .f32) :
    k2_pay1 (F := Ideal) x0 x1 x2 x3 x4
      = addf (addf (matmul dot_S2000x128_S128x64_S2000x64_1_0_0_1_n_n none (shapeCast S2000x128 x0 shapeCasts_S2000x128_S2000x128) (shapeCast S128x64 x2 shapeCasts_S128x64_S128x64) (constant S2000x64 .f32 0x00000000#32)) (matmul dot_S2000x128_S128x64_S2000x64_1_0_0_1_n_n none (shapeCast S2000x128 x1 shapeCasts_S2000x128_S2000x128) (shapeCast S128x64 x3 shapeCasts_S128x64_S128x64) (constant S2000x64 .f32 0x00000000#32))) (broadcastTo S2000x64 (shapeCast S1x64 x4 shapeCasts_S1x64_S1x64) broadcasts_S1x64_S2000x64) := rfl

/-- The stored value at entry (p, q) of the block. -/
theorem pay_apply (x0 x1 : FVec Ideal S2000x128 .bf16) (x2 x3 : FVec Ideal S128x64 .bf16) (x4 : FVec Ideal S1x64 .f32)
    (p : Fin 2000) (q : Fin 64) :
    k2_pay1 (F := Ideal) x0 x1 x2 x3 x4 (ix2 p q)
      = (((∑ k : Fin 128, x0 (ix2 p k) * x2 (ix2 k q)) + (∑ k : Fin 128, x1 (ix2 p k) * x3 (ix2 k q))) + x4 (ix2 0 q) : EReal) := by
  rw [pay_eq]
  simp only [shapeCast_self]
  rw [addf_apply, addf_apply, blk_matmul_apply, blk_matmul_apply]
  refine congrArg₂ (· + ·) rfl ?_
  exact broadcastTo_apply x4 broadcasts_S1x64_S2000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- ROWS 2000·b … 2000·b + 1999 OF THE LAYER are the block computation on those rows of A and X: when the two row blocks
    are those rows (`h0`, `h1`) and the weights and the bias are read whole (`h2`, `h3`, `h4`), entry (p, q) of the
    stored value is entry (2000·b + p, q) of the layer. -/
theorem block_eq (A X : FVec Ideal S100000x128 .f32) (WlT WrT : FVec Ideal S128x64 .f32) (B : FVec Ideal S1x64 .f32)
    (x0 x1 : FVec Ideal S2000x128 .bf16) (x2 x3 : FVec Ideal S128x64 .bf16) (x4 : FVec Ideal S1x64 .f32)
    (p : Fin 2000) (q : Fin 64) (r : Fin 100000)
    (h0 : ∀ k : Fin 128, x0 (ix2 p k) = A (ix2 r k)) (h1 : ∀ k : Fin 128, x1 (ix2 p k) = X (ix2 r k))
    (h2 : ∀ k : Fin 128, x2 (ix2 k q) = WlT (ix2 k q)) (h3 : ∀ k : Fin 128, x3 (ix2 k q) = WrT (ix2 k q))
    (h4 : x4 (ix2 0 q) = B (ix2 0 q)) :
    k2_pay1 (F := Ideal) x0 x1 x2 x3 x4 (ix2 p q) = Cert.Bridge.layer2 A X WlT WrT B (ix2 r q) := by
  refine (pay_apply x0 x1 x2 x3 x4 p q).trans ?_
  refine Eq.trans ?_ (layer_apply A X WlT WrT B r q).symm
  rw [Finset.sum_congr rfl (fun k _ => by rw [h0 k, h2 k] : ∀ k ∈ Finset.univ, x0 (ix2 p k) * x2 (ix2 k q) = A (ix2 r k) * WlT (ix2 k q)),
    Finset.sum_congr rfl (fun k _ => by rw [h1 k, h3 k] : ∀ k ∈ Finset.univ, x1 (ix2 p k) * x3 (ix2 k q) = X (ix2 r k) * WrT (ix2 k q)), h4]

end Block
end R2

/-! ## From the blocks to the array -/

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace R2

theorem zero_offsets : (![0, 0] : Fin 2 → Nat) = fun _ => 0 := funext fun a => by fin_cases a <;> rfl

/-- The block indices, decided over the 50 grid points: at point t the two row windows and the output window are at row
    block t, column block 0; the weights and the bias are at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT t WRITES BACK is rows 2000·t … 2000·t + 1999 of the layer of the arrays as the region finds them. -/
theorem flushed_eq (c : Dev nD) (t : Fin cfg2.N) :
    (dat2 (F := Ideal) V c).flushed 5 t
      = ((cfg2.win 5).blk t).view.read (Elt Ideal) (Cert.Bridge.layer2 (V c main_v71) (V c main_v72) (V c main_v67) (V c main_v69) (V c main_v70)) := by
  show (cfg2.win 5).cut (grid2.coords t) ((dat2 V c).after 5 t) = _
  rw [after2_5]
  unfold out2_5
  rw [View.canon_unit_zero zero_offsets]
  simp only [View.ld_unit_zero (S := S2000x128) zero_offsets, View.ld_unit_zero (S := S128x64) zero_offsets, View.ld_unit_zero (S := S1x64) zero_offsets]
  obtain ⟨a00, a01, a10, a11, a20, a21, a30, a31, a40, a41, a50, a51⟩ := idx_facts t
  have ht : t.val < 50 := (show t.val < grid2.N from t.isLt).trans_eq N_2
  refine funext fun (j : S2000x64.Idx) => ?_
  obtain ⟨p, q, rfl⟩ : ∃ (p : Fin 2000) (q : Fin 64), j = ix2 p q := ⟨j 0, j 1, eq_ix2 j⟩
  have hp : p.val < 2000 := p.isLt
  -- the array index under entry (p, q) of block t of the output
  have hout : (((cfg2.win 5).blk t).view.emb (ix2 p q) : S100000x64.Idx) = ix2 (⟨t.val * 2000 + p.val, by omega⟩ : Fin 100000) q := by
    funext a; apply Fin.ext
    match a with
    | ⟨0, _⟩ => show win2_5.index t (0 : Fin 2) * 2000 + 1 * p.val = t.val * 2000 + p.val; omega
    | ⟨1, _⟩ => show win2_5.index t (1 : Fin 2) * 64 + 1 * q.val = q.val; omega
  show k2_pay1 (F := Ideal) (iblk2 V c 0 t) (iblk2 V c 1 t) (iblk2 V c 2 t) (iblk2 V c 3 t) (iblk2 V c 4 t) (ix2 p q)
    = (Cert.Bridge.layer2 (V c main_v71) (V c main_v72) (V c main_v67) (V c main_v69) (V c main_v70)) (((cfg2.win 5).blk t).view.emb (ix2 p q))
  rw [hout]
  refine block_eq (V c main_v71) (V c main_v72) (V c main_v67) (V c main_v69) (V c main_v70)
    (iblk2 V c 0 t) (iblk2 V c 1 t) (iblk2 V c 2 t) (iblk2 V c 3 t) (iblk2 V c 4 t) p q _ ?_ ?_ ?_ ?_ ?_
  · intro k
    show V c main_v71 (((cfg2.win 0).blk t).view.emb (ix2 p k)) = V c main_v71 _
    refine congrArg (V c main_v71) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · intro k
    show V c main_v72 (((cfg2.win 1).blk t).view.emb (ix2 p k)) = V c main_v72 _
    refine congrArg (V c main_v72) (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  · intro k
    show V c main_v67 (((cfg2.win 2).blk t).view.emb (ix2 k q)) = V c main_v67 _
    refine congrArg (V c main_v67) (funext fun a => Fin.ext ?_)
    match a with
    | ⟨0, _⟩ => show win2_2.index t (0 : Fin 2) * 128 + 1 * k.val = k.val; omega
    | ⟨1, _⟩ => show win2_2.index t (1 : Fin 2) * 64 + 1 * q.val = q.val; omega
  · intro k
    show V c main_v69 (((cfg2.win 3).blk t).view.emb (ix2 k q)) = V c main_v69 _
    refine congrArg (V c main_v69) (funext fun a => Fin.ext ?_)
    match a with
    | ⟨0, _⟩ => show win2_3.index t (0 : Fin 2) * 128 + 1 * k.val = k.val; omega
    | ⟨1, _⟩ => show win2_3.index t (1 : Fin 2) * 64 + 1 * q.val = q.val; omega
  · show V c main_v70 (((cfg2.win 4).blk t).view.emb (ix2 0 q)) = V c main_v70 _
    refine congrArg (V c main_v70) (funext fun a => Fin.ext ?_)
    match a with
    | ⟨0, _⟩ => show win2_4.index t (0 : Fin 2) * 1 + 1 * 0 = 0; omega
    | ⟨1, _⟩ => show win2_4.index t (1 : Fin 2) * 64 + 1 * q.val = q.val; omega

/-- An index of the output array is in point t's block iff each coordinate is in the block's range on its axis. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v73).slice (win2_5.rect t)).set ↔ _
  rw [View.set_slice_whole, Rect.mem_set_unit]
  exact Iff.rfl

/-- The 50 blocks of 2000 rows cover the 100000 rows: row r is in the block of point r / 2000. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 2000 :=
    ⟨⟨(i 0).val / 2000, (show (i 0).val / 2000 < 50 by omega).trans_eq N_2.symm⟩, rfl⟩
  obtain ⟨a00, a01, a10, a11, a20, a21, a30, a31, a40, a41, a50, a51⟩ := idx_facts t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

end R2

/-- THE OUTPUT ARRAY OF REGION 2 after the run is the layer of the arrays the region finds. -/
theorem region2_value (c : Dev nD) :
    (dat2 (F := Ideal) V c).arrAt 5 cfg2.N
      = Cert.Bridge.layer2 (V c main_v71) (V c main_v72) (V c main_v67) (V c main_v69) (V c main_v70) :=
  (dat2 (F := Ideal) V c).arrAt_eq_of_cover 5 _ (fun t _ => R2.flushed_eq V c t) R2.cover

end Cert.Bridge.Regions

end
-- ==== Proof.Walk2.lean ====
/-
  The kernel program's buffers from the second region's exit to the third region's exit: the neighbour mean
  of the second layer, then the third layer's combine step (no rectifier): the embeddings.
-/
import proofs.«148430_j64776696758992_1_alg».proof.Proof.Walk1
import proofs.«148430_j64776696758992_1_alg».proof.Proof.Region2
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the third region's entry -/

theorem V7_v71 (c : Dev nD) : V7 m ρ c main_v71 = (truncf .bf16 (Spec.agg128 (Spec.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1))) Facts₀.bitsLt_bf16_f32 : FVec Ideal S100000x128 .bf16) := by
  show StableHlo.after hostOps2 (W6 m ρ c) (Proc.devRef .tc main_v71) = _
  have h0 := W6_v52 m ρ c
  have h1 := W6_v1 m ρ c
  have h2 := W6_v3 m ρ c
  have h3 := W6_v10 m ρ c
  generalize W6 m ρ c = U at h0 h1 h2 h3 ⊢
  after_results_simp
  rw [h0, h1, h2, h3]
  unfold Spec.agg128 Spec.srcN
  rfl

theorem V7_v72 (c : Dev nD) : V7 m ρ c main_v72 = (truncf .bf16 (Spec.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) Facts₀.bitsLt_bf16_f32 : FVec Ideal S100000x128 .bf16) := by
  show StableHlo.after hostOps2 (W6 m ρ c) (Proc.devRef .tc main_v72) = _
  have h0 := W6_v52 m ρ c
  generalize W6 m ρ c = U at h0 ⊢
  after_results_simp
  rw [h0]

theorem V7_v67 (c : Dev nD) : V7 m ρ c main_v67 = (transpose S128x64 [1, 0] (truncf .bf16 ((m ((c : Thread nD τ).loc main_arg9)) : FVec Ideal S64x128 .f32) Facts₀.bitsLt_bf16_f32) Facts₀.transposes_S64x128_S128x64_1_0 : FVec Ideal S128x64 .bf16) := by
  show StableHlo.after hostOps2 (W6 m ρ c) (Proc.devRef .tc main_v67) = _
  have h0 := W6_arg9 m ρ c
  generalize W6 m ρ c = U at h0 ⊢
  after_results_simp
  rw [h0]

theorem V7_v69 (c : Dev nD) : V7 m ρ c main_v69 = (transpose S128x64 [1, 0] (truncf .bf16 ((m ((c : Thread nD τ).loc main_arg10)) : FVec Ideal S64x128 .f32) Facts₀.bitsLt_bf16_f32) Facts₀.transposes_S64x128_S128x64_1_0 : FVec Ideal S128x64 .bf16) := by
  show StableHlo.after hostOps2 (W6 m ρ c) (Proc.devRef .tc main_v69) = _
  have h0 := W6_arg10 m ρ c
  generalize W6 m ρ c = U at h0 ⊢
  after_results_simp
  rw [h0]

theorem V7_v70 (c : Dev nD) : V7 m ρ c main_v70 = shapeCast S1x64 (m ((c : Thread nD τ).loc main_arg11)) Facts₀.shapeCasts_S64_S1x64 := by
  show StableHlo.after hostOps2 (W6 m ρ c) (Proc.devRef .tc main_v70) = _
  have h0 := W6_arg11 m ρ c
  generalize W6 m ρ c = U at h0 ⊢
  after_results_simp
  rw [h0]
  rfl

/-! ## At the third region's exit: the embeddings -/

theorem W8_v73 (c : Dev nD) : W8 m ρ c (Proc.devRef .tc main_v73) = (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine ((W8_arr m ρ c 5).trans (Cert.Bridge.Regions.region2_value (V7 m ρ) c)).trans ?_
  rw [V7_v71 m ρ c, V7_v72 m ρ c, V7_v67 m ρ c, V7_v69 m ρ c, V7_v70 m ρ c]
  rfl

theorem W8_arg2 (c : Dev nD) : W8 m ρ c (Proc.devRef .tc main_arg2) = (m ((c : Thread nD τ).loc main_arg2)) := by
  refine (W8_of_ne m ρ c main_arg2 (by decide)).trans ?_
  show StableHlo.after hostOps2 (W6 m ρ c) (Proc.devRef .tc main_arg2) = _
  have h0 := W6_arg2 m ρ c
  generalize W6 m ρ c = U at h0 ⊢
  after_results_simp
  exact h0

theorem W8_arg12 (c : Dev nD) : W8 m ρ c (Proc.devRef .tc main_arg12) = (m ((c : Thread nD τ).loc main_arg12)) := by
  refine (W8_of_ne m ρ c main_arg12 (by decide)).trans ?_
  show StableHlo.after hostOps2 (W6 m ρ c) (Proc.devRef .tc main_arg12) = _
  have h0 := W6_arg12 m ρ c
  generalize W6 m ρ c = U at h0 ⊢
  after_results_simp
  exact h0

theorem W8_arg13 (c : Dev nD) : W8 m ρ c (Proc.devRef .tc main_arg13) = (m ((c : Thread nD τ).loc main_arg13)) := by
  refine (W8_of_ne m ρ c main_arg13 (by decide)).trans ?_
  show StableHlo.after hostOps2 (W6 m ρ c) (Proc.devRef .tc main_arg13) = _
  have h0 := W6_arg13 m ρ c
  generalize W6 m ρ c = U at h0 ⊢
  after_results_simp
  exact h0

theorem W8_arg14 (c : Dev nD) : W8 m ρ c (Proc.devRef .tc main_arg14) = (m ((c : Thread nD τ).loc main_arg14)) := by
  refine (W8_of_ne m ρ c main_arg14 (by decide)).trans ?_
  show StableHlo.after hostOps2 (W6 m ρ c) (Proc.devRef .tc main_arg14) = _
  have h0 := W6_arg14 m ρ c
  generalize W6 m ρ c = U at h0 ⊢
  after_results_simp
  exact h0

theorem W8_arg15 (c : Dev nD) : W8 m ρ c (Proc.devRef .tc main_arg15) = (m ((c : Thread nD τ).loc main_arg15)) := by
  refine (W8_of_ne m ρ c main_arg15 (by decide)).trans ?_
  show StableHlo.after hostOps2 (W6 m ρ c) (Proc.devRef .tc main_arg15) = _
  have h0 := W6_arg15 m ρ c
  generalize W6 m ρ c = U at h0 ⊢
  after_results_simp
  exact h0

end Cert.KernelIdeal.Walk

end
-- ==== Proof.Region3.lean ====
/-
  The decoder region, read as one array function.

  Each of the 50 grid points takes a 2000 × 64 block E_t of the embeddings and the whole weight and bias arrays, and
  stores max(E_t · W1T + B1, 0) · W2T + B2, a 2000 × 64 block (the hidden block's narrowing to bf16 between the two
  products is the identity on extended reals). Entry (p, q) of that block is
      Σ_k max(Σ_l E_t[p, l] · W1T[l, k] + B1[0, k], 0) · W2T[k, q] + B2[0, q],
  which reads row p of E_t only; row p of the block at point t is row 2000·t + p of the embeddings. So the 50 blocks laid
  end to end are the host's decoder on the whole 100000 × 64 array, whose entry (r, q) is the same expression over row
  r: a row of a matrix product depends on that row of the left factor only.
-/
import proofs.«148430_j64776696758992_1_alg».proof.Proof.Gen.KernelIdeal.Frame
import proofs.«148430_j64776696758992_1_alg».proof.Proof.Layers
import Idealize.ShloMosaic.Lib.Pipeline.Value
import Idealize.ShloMosaic.Lib.ValueIdx
import Idealize.ShloMosaic.PureOps.Ideal.Laws

noncomputable section
namespace Cert.Bridge.Regions
open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- A contraction over one axis read as the sum over that axis's coordinates: entry (i, j) of the product of an
    M × K by a K × N matrix is Σ_k A[i, k] · B[k, j]. The dimension numbers' two readings of the row and the column
    (`hl0`, `hr1`) are computed at each literal record. -/
theorem dot_sum {M K N : Nat} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (j : (⟨2, ![M, N]⟩ : Shape).Idx) (q : D.contr.Idx), (D.lhsIdx j q 0).val = (j 0).val)
    (hr1 : ∀ (j : (⟨2, ![M, N]⟩ : Shape).Idx) (q : D.contr.Idx), (D.rhsIdx j q 1).val = (j 1).val)
    (A : (⟨2, ![M, K]⟩ : Shape).Idx → EReal) (B : (⟨2, ![K, N]⟩ : Shape).Idx → EReal) (i : Fin M) (j : Fin N) :
    ∑ q : D.contr.Idx, A (D.lhsIdx (ix2 i j) q) * B (D.rhsIdx (ix2 i j) q) = ∑ k : Fin K, A (ix2 i k) * B (ix2 k j) := by
  rw [← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun a => Fin.ext (by
    match a with
    | ⟨0, _⟩ => exact hl0 _ _
    | ⟨1, _⟩ => exact (D.lhsIdx_val_of_single hlc _ _).trans hk)
  have er : D.rhsIdx (ix2 i j) ((contrEquiv1 D K hr hs).symm k) = ix2 k j := funext fun a => Fin.ext (by
    match a with
    | ⟨0, _⟩ => exact (D.rhsIdx_val_of_single hrc _ _).trans hk
    | ⟨1, _⟩ => exact hr1 _ _)
  rw [el, er]

/-- The row reading of the block's first product. -/
theorem blockDot1_row (j : S2000x128.Idx) (q : dot_S2000x64_S64x128_S2000x128_1_0_0_1_n_n.contr.Idx) :
    (dot_S2000x64_S64x128_S2000x128_1_0_0_1_n_n.lhsIdx j q 0).val = (j 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- The column reading of the block's first product. -/
theorem blockDot1_col (j : S2000x128.Idx) (q : dot_S2000x64_S64x128_S2000x128_1_0_0_1_n_n.contr.Idx) :
    (dot_S2000x64_S64x128_S2000x128_1_0_0_1_n_n.rhsIdx j q 1).val = (j 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The block's first product at an entry. -/
theorem blockDot1_apply (A : FVec Ideal S2000x64 .bf16) (B : FVec Ideal S64x128 .bf16) (p : Fin 2000) (k : Fin 128) :
    matmul dot_S2000x64_S64x128_S2000x128_1_0_0_1_n_n none A B (constant S2000x128 .f32 0x00000000#32) (ix2 p k)
      = ∑ l : Fin 64, A (ix2 p l) * B (ix2 l k) := by
  refine (Ideal.matmul_constant_zero_apply _ none A B (ix2 p k)).trans ?_
  exact dot_sum dot_S2000x64_S64x128_S2000x128_1_0_0_1_n_n rfl rfl rfl rfl blockDot1_row blockDot1_col A B p k

/-- The row reading of the block's second product. -/
theorem blockDot2_row (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The column reading of the block's second product. -/
theorem blockDot2_col (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The block's second product at an entry. -/
theorem blockDot2_apply (A : FVec Ideal S2000x128 .bf16) (B : FVec Ideal S128x64 .bf16) (p : Fin 2000) (q : Fin 64) :
    matmul dot_S2000x128_S128x64_S2000x64_1_0_0_1_n_n none A B (constant S2000x64 .f32 0x00000000#32) (ix2 p q)
      = ∑ k : Fin 128, A (ix2 p k) * B (ix2 k q) := by
  refine (Ideal.matmul_constant_zero_apply _ none A B (ix2 p q)).trans ?_
  exact dot_sum dot_S2000x128_S128x64_S2000x64_1_0_0_1_n_n rfl rfl rfl rfl blockDot2_row blockDot2_col A B p q

/-- One entry of the block the decoder's body leaves: the hidden row (rectified, its narrowing to bf16 the identity
    on extended reals) times the second weight matrix, plus the second bias. -/
theorem mlp_block (x0 : Vec Ideal S2000x64 .bf16) (w1 : Vec Ideal S64x128 .bf16) (b1 : Vec Ideal S1x128 .f32)
    (w2 : Vec Ideal S128x64 .bf16) (b2 : Vec Ideal S1x64 .f32) (p : Fin 2000) (q : Fin 64) :
    k3_pay1 (F := Ideal) x0 w1 b1 w2 b2 (ix2 p q)
      = (∑ k : Fin 128, max ((∑ l : Fin 64, x0 (ix2 p l) * w1 (ix2 l k)) + b1 (ix2 0 k)) (Ideal.ofBits .f32 0x00000000#32)
            * w2 (ix2 k q))
        + b2 (ix2 0 q) := by
  unfold k3_pay1
  simp only [shapeCast_self]
  refine (addf_apply _ _ _).trans ?_
  refine congrArg₂ (· + ·) ?_ ?_
  · refine (blockDot2_apply _ w2 p q).trans ?_
    refine Finset.sum_congr rfl fun k _ => ?_
    refine congrArg (· * w2 (ix2 k q)) ?_
    refine (truncf_apply (ψ := .bf16) (φ := .f32) _ _ _).trans ?_
    refine (maximumf_apply _ _ _).trans ?_
    refine congrArg₂ max ?_ rfl
    refine (addf_apply _ _ _).trans ?_
    refine congrArg₂ (· + ·) (blockDot1_apply x0 w1 p k) ?_
    exact broadcastTo_apply b1 _ (ix2 p k) (ix2 0 k) (fun a => match a with | ⟨0, _⟩ => rfl | ⟨1, _⟩ => rfl)
  · exact broadcastTo_apply b2 _ (ix2 p q) (ix2 0 q) (fun a => match a with | ⟨0, _⟩ => rfl | ⟨1, _⟩ => rfl)

/-- The row reading of the host's first product. -/
theorem hostDot1_row (j : Cert.ReferenceIdeal.S100000x128.Idx)
    (q : Cert.ReferenceIdeal.dot_S100000x64_S64x128_S100000x128_1_0_0_1_n_n.contr.Idx) :
    (Cert.ReferenceIdeal.dot_S100000x64_S64x128_S100000x128_1_0_0_1_n_n.lhsIdx j q 0).val = (j 0).val := by
  unfold DotDims.lhsIdx
  rw [dif_neg (show ¬(0 : Fin Cert.ReferenceIdeal.S100000x64.rank) ∈ Cert.ReferenceIdeal.dot_S100000x64_S64x128_S100000x128_1_0_0_1_n_n.lhsBatch by decide), dif_pos (show (0 : Fin Cert.ReferenceIdeal.S100000x64.rank) ∈ Cert.ReferenceIdeal.dot_S100000x64_S64x128_S100000x128_1_0_0_1_n_n.lhsNonContracting by decide)]
  rfl
/-- The column reading of the host's first product. -/
theorem hostDot1_col (j : Cert.ReferenceIdeal.S100000x128.Idx)
    (q : Cert.ReferenceIdeal.dot_S100000x64_S64x128_S100000x128_1_0_0_1_n_n.contr.Idx) :
    (Cert.ReferenceIdeal.dot_S100000x64_S64x128_S100000x128_1_0_0_1_n_n.rhsIdx j q 1).val = (j 1).val := by
  unfold DotDims.rhsIdx
  rw [dif_neg (show ¬(1 : Fin Cert.ReferenceIdeal.S64x128.rank) ∈ Cert.ReferenceIdeal.dot_S100000x64_S64x128_S100000x128_1_0_0_1_n_n.rhsBatch by decide), dif_pos (show (1 : Fin Cert.ReferenceIdeal.S64x128.rank) ∈ Cert.ReferenceIdeal.dot_S100000x64_S64x128_S100000x128_1_0_0_1_n_n.rhsNonContracting by decide)]
  rfl
/-- The host's first product at an entry. -/
theorem hostDot1_apply (A : FVec Ideal Cert.ReferenceIdeal.S100000x64 .f32) (B : FVec Ideal Cert.ReferenceIdeal.S64x128 .f32)
    (r : Fin 100000) (k : Fin 128) :
    Host.dotGeneral Cert.ReferenceIdeal.dot_S100000x64_S64x128_S100000x128_1_0_0_1_n_n none A B (ix2 r k)
      = ∑ l : Fin 64, A (ix2 r l) * B (ix2 l k) := by
  simp only [Host.dotGeneral]
  refine (Ideal.dotGeneral_apply _ none _ A B (ix2 r k)).trans ?_
  exact dot_sum Cert.ReferenceIdeal.dot_S100000x64_S64x128_S100000x128_1_0_0_1_n_n rfl rfl rfl rfl hostDot1_row hostDot1_col A B r k

/-- The row reading of the host's second product. -/
theorem hostDot2_row (j : Cert.ReferenceIdeal.S100000x64.Idx)
    (q : Cert.ReferenceIdeal.dot_S100000x128_S128x64_S100000x64_1_0_0_1_n_n.contr.Idx) :
    (Cert.ReferenceIdeal.dot_S100000x128_S128x64_S100000x64_1_0_0_1_n_n.lhsIdx j q 0).val = (j 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
/-- The column reading of the host's second product. -/
theorem hostDot2_col (j : Cert.ReferenceIdeal.S100000x64.Idx)
    (q : Cert.ReferenceIdeal.dot_S100000x128_S128x64_S100000x64_1_0_0_1_n_n.contr.Idx) :
    (Cert.ReferenceIdeal.dot_S100000x128_S128x64_S100000x64_1_0_0_1_n_n.rhsIdx j q 1).val = (j 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl
/-- The host's second product at an entry. -/
theorem hostDot2_apply (A : FVec Ideal Cert.ReferenceIdeal.S100000x128 .f32) (B : FVec Ideal Cert.ReferenceIdeal.S128x64 .f32)
    (r : Fin 100000) (q : Fin 64) :
    Host.dotGeneral Cert.ReferenceIdeal.dot_S100000x128_S128x64_S100000x64_1_0_0_1_n_n none A B (ix2 r q)
      = ∑ k : Fin 128, A (ix2 r k) * B (ix2 k q) := by
  simp only [Host.dotGeneral]
  refine (Ideal.dotGeneral_apply _ none _ A B (ix2 r q)).trans ?_
  exact dot_sum Cert.ReferenceIdeal.dot_S100000x128_S128x64_S100000x64_1_0_0_1_n_n rfl rfl rfl rfl hostDot2_row hostDot2_col A B r q

/-- One entry of the host's decoder on whole arrays: the same expression over row r of the embeddings. -/
theorem mlp_apply (E : FVec Ideal Cert.ReferenceIdeal.S100000x64 .f32) (W1T : FVec Ideal Cert.ReferenceIdeal.S64x128 .f32)
    (B1 : FVec Ideal Cert.ReferenceIdeal.S1x128 .f32) (W2T : FVec Ideal Cert.ReferenceIdeal.S128x64 .f32)
    (B2 : FVec Ideal Cert.ReferenceIdeal.S1x64 .f32) (r : Fin 100000) (q : Fin 64) :
    Cert.Bridge.mlp E W1T B1 W2T B2 (ix2 r q)
      = (∑ k : Fin 128, max ((∑ l : Fin 64, E (ix2 r l) * W1T (ix2 l k)) + B1 (ix2 0 k)) (Ideal.ofBits .f32 0x00000000#32)
            * W2T (ix2 k q))
        + B2 (ix2 0 q) := by
  unfold Cert.Bridge.mlp
  refine (addf_apply _ _ _).trans ?_
  refine congrArg₂ (· + ·) ?_ ?_
  · refine (hostDot2_apply _ W2T r q).trans ?_
    refine Finset.sum_congr rfl fun k _ => ?_
    refine congrArg (· * W2T (ix2 k q)) ?_
    refine (maximumf_apply _ _ _).trans ?_
    refine congrArg₂ max ?_ rfl
    refine (addf_apply _ _ _).trans ?_
    refine congrArg₂ (· + ·) (hostDot1_apply E W1T r k) ?_
    exact broadcastInDim_apply _ _ B1 (ix2 r k) (ix2 0 k) (fun a => match a with | ⟨0, _⟩ => rfl | ⟨1, _⟩ => rfl)
  · exact broadcastInDim_apply _ _ B2 (ix2 r q) (ix2 0 q) (fun a => match a with | ⟨0, _⟩ => rfl | ⟨1, _⟩ => rfl)

/-- What one grid point leaves, read against the whole array: rows 2000·n … 2000·n + 1999 of the decoder's result,
    when the embedding block is block row n of the embeddings and the weight and bias blocks are the whole arrays. -/
theorem point3 (E : FVec Ideal Cert.ReferenceIdeal.S100000x64 .f32) (W1T : FVec Ideal Cert.ReferenceIdeal.S64x128 .f32)
    (B1 : FVec Ideal Cert.ReferenceIdeal.S1x128 .f32) (W2T : FVec Ideal Cert.ReferenceIdeal.S128x64 .f32)
    (B2 : FVec Ideal Cert.ReferenceIdeal.S1x64 .f32)
    (x0 : Vec Ideal S2000x64 .bf16) (x1 : Vec Ideal S64x128 .bf16) (x2 : Vec Ideal S1x128 .f32)
    (x3 : Vec Ideal S128x64 .bf16) (x4 : Vec Ideal S1x64 .f32) (n : Nat)
    (h0 : ∀ (p : Fin 2000) (l : Fin 64) (r : Fin 100000), r.val = n * 2000 + p.val → x0 (ix2 p l) = E (ix2 r l))
    (h1 : x1 = W1T) (h2 : x2 = B1) (h3 : x3 = W2T) (h4 : x4 = B2)
    (j : S2000x64.Idx) (i : S100000x64.Idx) (hi0 : (i 0).val = n * 2000 + (j 0).val) (hi1 : (i 1).val = (j 1).val) :
    k3_pay1 (F := Ideal) x0 x1 x2 x3 x4 j = Cert.Bridge.mlp E W1T B1 W2T B2 i := by
  subst h1 h2 h3 h4
  obtain ⟨p, q, rfl⟩ : ∃ (p : Fin 2000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  rw [mlp_block, mlp_apply]
  refine congrArg (· + x4 (ix2 0 q')) (Finset.sum_congr rfl fun k _ => ?_)
  refine congrArg (fun s => max (s + x2 (ix2 0 k)) (Ideal.ofBits .f32 0x00000000#32) * x3 (ix2 k q')) ?_
  exact Finset.sum_congr rfl fun l _ => by rw [h0 p l r hi0]

theorem origin3 : (![0, 0] : Fin 2 → Nat) = fun _ => 0 := funext fun a => by fin_cases a <;> rfl

/-- The printed index maps over the grid: at point t the embedding window and the result window are at block row t,
    every weight and bias window at its one block. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point t writes back is block t of the decoder's result on the arrays as the region finds them. -/
theorem flushed3 (c : Dev nD) (t : Fin cfg3.N) :
    (dat3 (F := Ideal) V c).flushed 5 t
      = ((cfg3.win 5).blk t).view.read (Elt Ideal)
          (Cert.Bridge.mlp (V c main_v80) (V c main_v75) (V c main_v78) (V c main_v77) (V c main_v79)) := by
  show (cfg3.win 5).cut (grid3.coords t) ((dat3 (F := Ideal) V c).after 5 t) = _
  rw [after3_5]
  unfold out3_5
  rw [View.canon_unit_zero origin3]
  simp only [View.ld_unit_zero (S := S2000x64) origin3, View.ld_unit_zero (S := S64x128) origin3,
    View.ld_unit_zero (S := S1x128) origin3, View.ld_unit_zero (S := S128x64) origin3,
    View.ld_unit_zero (S := S1x64) origin3]
  obtain ⟨a0, a1, b0, b1, c0, c1, d0, d1, e0, e1, o0, o1⟩ := index_facts3 t
  funext j
  show k3_pay1 (F := Ideal) (iblk3 V c 0 t) (iblk3 V c 1 t) (iblk3 V c 2 t) (iblk3 V c 3 t) (iblk3 V c 4 t) j
    = Cert.Bridge.mlp (V c main_v80) (V c main_v75) (V c main_v78) (V c main_v77) (V c main_v79)
        (((cfg3.win 5).blk t).view.emb j)
  refine point3 (V c main_v80) (V c main_v75) (V c main_v78) (V c main_v77) (V c main_v79)
    (iblk3 V c 0 t) (iblk3 V c 1 t) (iblk3 V c 2 t) (iblk3 V c 3 t) (iblk3 V c 4 t) t.val ?_ ?_ ?_ ?_ ?_ j _ ?_ ?_
  · intro p l r hr
    show V c main_v80 (((cfg3.win 0).blk t).view.emb (ix2 p l)) = V c main_v80 (ix2 r l)
    refine congrArg (V c main_v80) (funext fun a => Fin.ext ?_)
    match a with
    | ⟨0, _⟩ => show win3_0.index t (0 : Fin 2) * 2000 + 1 * p.val = r.val; omega
    | ⟨1, _⟩ => show win3_0.index t (1 : Fin 2) * 64 + 1 * l.val = l.val; omega
  · funext y
    show V c main_v75 (((cfg3.win 1).blk t).view.emb y) = V c main_v75 y
    refine congrArg (V c main_v75) (funext fun a => Fin.ext ?_)
    match a with
    | ⟨0, _⟩ => show win3_1.index t (0 : Fin 2) * 64 + 1 * (y 0).val = (y 0).val; omega
    | ⟨1, _⟩ => show win3_1.index t (1 : Fin 2) * 128 + 1 * (y 1).val = (y 1).val; omega
  · funext y
    show V c main_v78 (((cfg3.win 2).blk t).view.emb y) = V c main_v78 y
    refine congrArg (V c main_v78) (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · funext y
    show V c main_v77 (((cfg3.win 3).blk t).view.emb y) = V c main_v77 y
    refine congrArg (V c main_v77) (funext fun a => Fin.ext ?_)
    match a with
    | ⟨0, _⟩ => show win3_3.index t (0 : Fin 2) * 128 + 1 * (y 0).val = (y 0).val; omega
    | ⟨1, _⟩ => show win3_3.index t (1 : Fin 2) * 64 + 1 * (y 1).val = (y 1).val; omega
  · funext y
    show V c main_v79 (((cfg3.win 4).blk t).view.emb y) = V c main_v79 y
    refine congrArg (V c main_v79) (funext fun a => Fin.ext ?_)
    match a with
    | ⟨0, _⟩ => show win3_4.index t (0 : Fin 2) * 1 + 1 * (y 0).val = (y 0).val; omega
    | ⟨1, _⟩ => show win3_4.index t (1 : Fin 2) * 64 + 1 * (y 1).val = (y 1).val; omega
  · show win3_5.index t (0 : Fin 2) * 2000 + 1 * (j 0).val = t.val * 2000 + (j 0).val
    omega
  · show win3_5.index t (1 : Fin 2) * 64 + 1 * (j 1).val = (j 1).val
    omega

/-- An index of the result array is in point t's block iff each coordinate is in the block's range. -/
theorem mem_blk3 (t : Fin cfg3.N) (i : S100000x64.Idx) :
    i ∈ ((cfg3.win 5).blk t).view.set ↔ ∀ a : Fin 2, win3_5.index t a * S2000x64.size a ≤ (i a).val
      ∧ (i a).val < win3_5.index t a * S2000x64.size a + S2000x64.size a := by
  show i ∈ ((View.whole main_v81).slice (win3_5.rect t)).set ↔ _
  rw [View.set_slice_whole, Rect.mem_set_unit]
  exact Iff.rfl

/-- Row r of the result lies in the block of point r / 2000. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 50 := N_3
  let t : Fin cfg3.N := ⟨(i 0).val / 2000, by rw [hN]; omega⟩
  have ht : t.val = (i 0).val / 2000 := rfl
  obtain ⟨a0, a1, b0, b1, c0, c1, d0, d1, e0, e1, o0, o1⟩ := index_facts3 t
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 64 ≤ (i 1).val ∧ (i 1).val < win3_5.index t (1 : Fin 2) * 64 + 64; omega

/-- The array the decoder region leaves is the host's decoder of the arrays the region was entered with. -/
theorem region3_value (c : Dev nD) :
    (dat3 (F := Ideal) V c).arrAt 5 cfg3.N
      = Cert.Bridge.mlp (V c main_v80) (V c main_v75) (V c main_v78) (V c main_v77) (V c main_v79) :=
  (dat3 (F := Ideal) V c).arrAt_eq_of_cover 5
    (Cert.Bridge.mlp (V c main_v80) (V c main_v75) (V c main_v78) (V c main_v77) (V c main_v79))
    (fun t _ => flushed3 V c t) cover3

end Cert.Bridge.Regions
end
-- ==== Proof.Walk3.lean ====
/-
  The kernel program's buffers from the third region's exit to the fourth region's exit: the decoder's two
  weight matrices transposed, its two bias rows, and the decoder applied to the embeddings.
-/
import proofs.«148430_j64776696758992_1_alg».proof.Proof.Walk2
import proofs.«148430_j64776696758992_1_alg».proof.Proof.Region3
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the fourth region's entry -/

theorem V9_v80 (c : Dev nD) : V9 m ρ c main_v80 = (truncf .bf16 (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) Facts₀.bitsLt_bf16_f32 : FVec Ideal S100000x64 .bf16) := by
  show StableHlo.after hostOps3 (W8 m ρ c) (Proc.devRef .tc main_v80) = _
  have h0 := W8_v73 m ρ c
  generalize W8 m ρ c = U at h0 ⊢
  after_results_simp
  rw [h0]

theorem V9_v75 (c : Dev nD) : V9 m ρ c main_v75 = (transpose S64x128 [1, 0] (truncf .bf16 ((m ((c : Thread nD τ).loc main_arg12)) : FVec Ideal S128x64 .f32) Facts₀.bitsLt_bf16_f32) Facts₀.transposes_S128x64_S64x128_1_0 : FVec Ideal S64x128 .bf16) := by
  show StableHlo.after hostOps3 (W8 m ρ c) (Proc.devRef .tc main_v75) = _
  have h0 := W8_arg12 m ρ c
  generalize W8 m ρ c = U at h0 ⊢
  after_results_simp
  rw [h0]

theorem V9_v78 (c : Dev nD) : V9 m ρ c main_v78 = shapeCast S1x128 (m ((c : Thread nD τ).loc main_arg13)) Facts₀.shapeCasts_S128_S1x128 := by
  show StableHlo.after hostOps3 (W8 m ρ c) (Proc.devRef .tc main_v78) = _
  have h0 := W8_arg13 m ρ c
  generalize W8 m ρ c = U at h0 ⊢
  after_results_simp
  rw [h0]
  rfl

theorem V9_v77 (c : Dev nD) : V9 m ρ c main_v77 = (transpose S128x64 [1, 0] (truncf .bf16 ((m ((c : Thread nD τ).loc main_arg14)) : FVec Ideal S64x128 .f32) Facts₀.bitsLt_bf16_f32) Facts₀.transposes_S64x128_S128x64_1_0 : FVec Ideal S128x64 .bf16) := by
  show StableHlo.after hostOps3 (W8 m ρ c) (Proc.devRef .tc main_v77) = _
  have h0 := W8_arg14 m ρ c
  generalize W8 m ρ c = U at h0 ⊢
  after_results_simp
  rw [h0]

theorem V9_v79 (c : Dev nD) : V9 m ρ c main_v79 = shapeCast S1x64 (m ((c : Thread nD τ).loc main_arg15)) Facts₀.shapeCasts_S64_S1x64 := by
  show StableHlo.after hostOps3 (W8 m ρ c) (Proc.devRef .tc main_v79) = _
  have h0 := W8_arg15 m ρ c
  generalize W8 m ρ c = U at h0 ⊢
  after_results_simp
  rw [h0]
  rfl

/-! ## At the fourth region's exit: the reconstruction -/

theorem W10_v81 (c : Dev nD) : W10 m ρ c (Proc.devRef .tc main_v81) = (Spec.dec (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14)) (m ((c : Thread nD τ).loc main_arg15))) := by
  refine ((W10_arr m ρ c 5).trans (Cert.Bridge.Regions.region3_value (V9 m ρ) c)).trans ?_
  rw [V9_v80 m ρ c, V9_v75 m ρ c, V9_v78 m ρ c, V9_v77 m ρ c, V9_v79 m ρ c]
  rfl

theorem W10_v73 (c : Dev nD) : W10 m ρ c (Proc.devRef .tc main_v73) = (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W10_of_ne m ρ c main_v73 (by decide)).trans ?_
  show StableHlo.after hostOps3 (W8 m ρ c) (Proc.devRef .tc main_v73) = _
  have h0 := W8_v73 m ρ c
  generalize W8 m ρ c = U at h0 ⊢
  after_results_simp
  exact h0

theorem W10_arg2 (c : Dev nD) : W10 m ρ c (Proc.devRef .tc main_arg2) = (m ((c : Thread nD τ).loc main_arg2)) := by
  refine (W10_of_ne m ρ c main_arg2 (by decide)).trans ?_
  show StableHlo.after hostOps3 (W8 m ρ c) (Proc.devRef .tc main_arg2) = _
  have h0 := W8_arg2 m ρ c
  generalize W8 m ρ c = U at h0 ⊢
  after_results_simp
  exact h0

end Cert.KernelIdeal.Walk

end
-- ==== Proof.Region4.lean ====
/-
  The edge-score region, read as one array function.

  Each of the 50 grid points multiplies two 2000 × 64 blocks entry by entry, sums every row over its 64 lanes and
  stores the 2000 sums as a 2000 × 1 column. Row p of the block at point t is row 2000·t + p of the two gathered
  arrays, and a row's sum depends on that row only, so the 50 columns laid end to end are the 100000 × 1 column
  whose entry r is Σ_k GS[r, k] · GD[r, k] — the host's reduction over axis 1, which starts from the zero literal.
-/
import proofs.«148430_j64776696758992_1_alg».proof.Proof.Gen.KernelIdeal.Frame
import proofs.«148430_j64776696758992_1_alg».proof.Proof.Layers
import Idealize.ShloMosaic.Lib.Pipeline.Value
import Idealize.ShloMosaic.Lib.ValueIdx
import Idealize.ShloMosaic.PureOps.Ideal.Laws

noncomputable section
namespace Cert.Bridge.Regions
open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One row of the block's payload: the lane sum of the two blocks' products. -/
theorem rowdot_block (x0 x1 : Vec Ideal S2000x64 .f32) (p : Fin 2000) (q : Fin 1) :
    k4_pay1 (F := Ideal) x0 x1 (ix2 p q) = ∑ k : Fin 64, x0 (ix2 p k) * x1 (ix2 p k) := by
  unfold k4_pay1
  refine (shapeCast_apply _ _ (ix2 p q) (ix1 p) ?_).trans ?_
  · rw [Shape.rowMajor_val_one, Shape.rowMajor_val_two]
    show p.val = p.val * 1 + q.val
    omega
  rw [shapeCast_self, shapeCast_self]
  refine (Ideal.multiReduction_add_single (mulf x0 x1) 0x00000000#32 reduces_S2000x64_S2000 (.inl rfl) rfl (ix1 p)).trans ?_
  refine Finset.sum_congr rfl fun k _ => ?_
  have e : reduces_S2000x64_S2000.lift (ix1 p) k = ix2 p k :=
    funext fun a => Fin.ext (by match a with | ⟨0, _⟩ => rfl | ⟨1, _⟩ => rfl)
  rw [mulf_apply, e]
  rfl

/-- One entry of the host's column of scores: the sum starts from the zero literal. -/
theorem scoreCol_apply (GS GD : FVec Ideal Cert.ReferenceIdeal.S100000x64 .f32) (r : Fin 100000) (q : Fin 1) :
    Cert.Bridge.scoreCol GS GD (ix2 r q) = ∑ k : Fin 64, GS (ix2 r k) * GD (ix2 r k) := by
  unfold Cert.Bridge.scoreCol Cert.Bridge.score
  simp only [Host.reduceAdd, Ideal.hostReduceAdd_def]
  refine (Ideal.hostReduceAdd_single Cert.ReferenceIdeal.Facts₀.reducesTo_S100000x64_S100000_d1 (by decide) _ _ _).trans ?_
  show Ideal.ofBits .f32 0x00000000#32 + _ = _
  rw [Ideal.ofBits_zero_f32, zero_add]
  refine Finset.sum_congr rfl fun k _ => ?_
  rw [mulf_apply]
  refine congrArg (fun i => GS i * GD i) (funext fun a => Fin.ext ?_)
  match a with
  | ⟨0, _⟩ => rfl
  | ⟨1, _⟩ => rfl

/-- What one grid point leaves, read against the whole column: block row n of the scores, when the two input
    blocks are block row n of the two gathered arrays. -/
theorem point4 (GS GD : FVec Ideal Cert.ReferenceIdeal.S100000x64 .f32) (x0 x1 : Vec Ideal S2000x64 .f32) (n : Nat)
    (h0 : ∀ (p : Fin 2000) (k : Fin 64) (r : Fin 100000), r.val = n * 2000 + p.val → x0 (ix2 p k) = GS (ix2 r k))
    (h1 : ∀ (p : Fin 2000) (k : Fin 64) (r : Fin 100000), r.val = n * 2000 + p.val → x1 (ix2 p k) = GD (ix2 r k))
    (j : S2000x1.Idx) (i : S100000x1.Idx) (hi : (i 0).val = n * 2000 + (j 0).val) :
    k4_pay1 (F := Ideal) x0 x1 j = Cert.Bridge.scoreCol GS GD i := by
  obtain ⟨p, q, rfl⟩ : ∃ (p : Fin 2000) (q : Fin 1), j = ix2 p q := ⟨j 0, j 1, eq_ix2 j⟩
  obtain ⟨r, q', rfl⟩ : ∃ (r : Fin 100000) (q' : Fin 1), i = ix2 r q' := ⟨i 0, i 1, eq_ix2 i⟩
  rw [rowdot_block, scoreCol_apply]
  exact Finset.sum_congr rfl fun k _ => by rw [h0 p k r hi, h1 p k r hi]

theorem zero_offsets : (![0, 0] : Fin 2 → Nat) = fun _ => 0 := funext fun a => by fin_cases a <;> rfl

/-- The printed index maps over the grid: at point t every window's block is block row t, block column 0. -/
theorem index_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the score column of the two arrays as the region finds them. -/
theorem flushed4 (c : Dev nD) (t : Fin cfg4.N) :
    (dat4 (F := Ideal) V c).flushed 2 t
      = ((cfg4.win 2).blk t).view.read (Elt Ideal) (Cert.Bridge.scoreCol (V c main_v92) (V c main_v99)) := by
  show (cfg4.win 2).cut (grid4.coords t) ((dat4 (F := Ideal) V c).after 2 t) = _
  rw [after4_2]
  unfold out4_2
  rw [View.canon_unit_zero zero_offsets]
  simp only [View.ld_unit_zero (S := S2000x64) zero_offsets]
  obtain ⟨a0, a1, b0, b1, o0, o1⟩ := index_facts4 t
  funext j
  show k4_pay1 (F := Ideal) (iblk4 V c 0 t) (iblk4 V c 1 t) j
    = Cert.Bridge.scoreCol (V c main_v92) (V c main_v99) (((cfg4.win 2).blk t).view.emb j)
  refine point4 (V c main_v92) (V c main_v99) (iblk4 V c 0 t) (iblk4 V c 1 t) t.val ?_ ?_ j _ ?_
  · intro p k r hr
    show V c main_v92 (((cfg4.win 0).blk t).view.emb (ix2 p k)) = V c main_v92 (ix2 r k)
    refine congrArg (V c main_v92) (funext fun a => Fin.ext ?_)
    match a with
    | ⟨0, _⟩ => show win4_0.index t (0 : Fin 2) * 2000 + 1 * p.val = r.val; omega
    | ⟨1, _⟩ => show win4_0.index t (1 : Fin 2) * 64 + 1 * k.val = k.val; omega
  · intro p k r hr
    show V c main_v99 (((cfg4.win 1).blk t).view.emb (ix2 p k)) = V c main_v99 (ix2 r k)
    refine congrArg (V c main_v99) (funext fun a => Fin.ext ?_)
    match a with
    | ⟨0, _⟩ => show win4_1.index t (0 : Fin 2) * 2000 + 1 * p.val = r.val; omega
    | ⟨1, _⟩ => show win4_1.index t (1 : Fin 2) * 64 + 1 * k.val = k.val; omega
  · show win4_2.index t (0 : Fin 2) * 2000 + 1 * (j 0).val = t.val * 2000 + (j 0).val
    omega

/-- An index of the score column is in point t's block iff each coordinate is in the block's range. -/
theorem mem_blk4 (t : Fin cfg4.N) (i : S100000x1.Idx) :
    i ∈ ((cfg4.win 2).blk t).view.set ↔ ∀ a : Fin 2, win4_2.index t a * S2000x1.size a ≤ (i a).val
      ∧ (i a).val < win4_2.index t a * S2000x1.size a + S2000x1.size a := by
  show i ∈ ((View.whole main_v100).slice (win4_2.rect t)).set ↔ _
  rw [View.set_slice_whole, Rect.mem_set_unit]
  exact Iff.rfl

/-- Row r of the column lies in the block of point r / 2000. -/
theorem cover4 (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 50 := N_4
  let t : Fin cfg4.N := ⟨(i 0).val / 2000, by rw [hN]; omega⟩
  have ht : t.val = (i 0).val / 2000 := rfl
  obtain ⟨a0, a1, b0, b1, o0, o1⟩ := index_facts4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 1 ≤ (i 1).val ∧ (i 1).val < win4_2.index t (1 : Fin 2) * 1 + 1; omega

/-- The score array the edge-score region leaves is the host's column of row-wise inner products. -/
theorem region4_value (c : Dev nD) :
    (dat4 (F := Ideal) V c).arrAt 2 cfg4.N = Cert.Bridge.scoreCol (V c main_v92) (V c main_v99) :=
  (dat4 (F := Ideal) V c).arrAt_eq_of_cover 2 (Cert.Bridge.scoreCol (V c main_v92) (V c main_v99))
    (fun t _ => flushed4 V c t) cover4

end Cert.Bridge.Regions
end
-- ==== Proof.Walk4.lean ====
/-
  The kernel program's buffers from the fourth region's exit to the return: the embedding rows the sampled
  pairs pick, their row-wise inner products as a column, and the column re-laid as the flat score array.
  The last three facts are the program's three results as functions of its arguments.
-/
import proofs.«148430_j64776696758992_1_alg».proof.Proof.Walk3
import proofs.«148430_j64776696758992_1_alg».proof.Proof.Region4
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the fifth region's entry -/

theorem V11_v92 (c : Dev nD) : V11 m ρ c main_v92 = Spec.rows (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Spec.pick0 (m ((c : Thread nD τ).loc main_arg2))) := by
  show StableHlo.after hostOps4 (W10 m ρ c) (Proc.devRef .tc main_v92) = _
  have h0 := W10_v73 m ρ c
  have h1 := W10_arg2 m ρ c
  generalize W10 m ρ c = U at h0 h1 ⊢
  after_results_simp
  rw [h0, h1]
  unfold Spec.rows Spec.wrap Spec.pick0
  rfl

theorem V11_v99 (c : Dev nD) : V11 m ρ c main_v99 = Spec.rows (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Spec.pick1 (m ((c : Thread nD τ).loc main_arg2))) := by
  show StableHlo.after hostOps4 (W10 m ρ c) (Proc.devRef .tc main_v99) = _
  have h0 := W10_v73 m ρ c
  have h1 := W10_arg2 m ρ c
  generalize W10 m ρ c = U at h0 h1 ⊢
  after_results_simp
  rw [h0, h1]
  unfold Spec.rows Spec.wrap Spec.pick1
  rfl

/-! ## At the fifth region's exit: the scores as a column -/

theorem W12_v100 (c : Dev nD) : W12 m ρ c (Proc.devRef .tc main_v100) = Cert.Bridge.scoreCol (Spec.rows (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Spec.pick0 (m ((c : Thread nD τ).loc main_arg2)))) (Spec.rows (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (Spec.pick1 (m ((c : Thread nD τ).loc main_arg2)))) := by
  refine ((W12_arr m ρ c 2).trans (Cert.Bridge.Regions.region4_value (V11 m ρ) c)).trans ?_
  rw [V11_v92 m ρ c, V11_v99 m ρ c]

theorem W12_v73 (c : Dev nD) : W12 m ρ c (Proc.devRef .tc main_v73) = (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W12_of_ne m ρ c main_v73 (by decide)).trans ?_
  show StableHlo.after hostOps4 (W10 m ρ c) (Proc.devRef .tc main_v73) = _
  have h0 := W10_v73 m ρ c
  generalize W10 m ρ c = U at h0 ⊢
  after_results_simp
  exact h0

theorem W12_v81 (c : Dev nD) : W12 m ρ c (Proc.devRef .tc main_v81) = (Spec.dec (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14)) (m ((c : Thread nD τ).loc main_arg15))) := by
  refine (W12_of_ne m ρ c main_v81 (by decide)).trans ?_
  show StableHlo.after hostOps4 (W10 m ρ c) (Proc.devRef .tc main_v81) = _
  have h0 := W10_v81 m ρ c
  generalize W10 m ρ c = U at h0 ⊢
  after_results_simp
  exact h0

/-! ## At the return: the three results -/

theorem W13_v101 (c : Dev nD) : W13 m ρ c (Proc.devRef .tc main_v101) = Spec.scores (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg2)) := by
  show StableHlo.after hostOps5 (W12 m ρ c) (Proc.devRef .tc main_v101) = _
  have h0 := W12_v100 m ρ c
  generalize W12 m ρ c = U at h0 ⊢
  after_results_simp
  rw [h0]
  unfold Spec.scores
  rfl

theorem W13_v73 (c : Dev nD) : W13 m ρ c (Proc.devRef .tc main_v73) = (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show StableHlo.after hostOps5 (W12 m ρ c) (Proc.devRef .tc main_v73) = _
  have h0 := W12_v73 m ρ c
  generalize W12 m ρ c = U at h0 ⊢
  after_results_simp
  exact h0

theorem W13_v81 (c : Dev nD) : W13 m ρ c (Proc.devRef .tc main_v81) = (Spec.dec (Spec.emb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14)) (m ((c : Thread nD τ).loc main_arg15))) := by
  show StableHlo.after hostOps5 (W12 m ρ c) (Proc.devRef .tc main_v81) = _
  have h0 := W12_v81 m ρ c
  generalize W12 m ρ c = U at h0 ⊢
  after_results_simp
  exact h0

end Cert.KernelIdeal.Walk

end
-- ==== Proof.MeanScale.lean ====
/-
  Two ways to write the mean over a node's neighbours, and two ways to lay a bias out as a row.

  With `c = max(1, d)` the clipped in-degree, one program multiplies the neighbour sum by the reciprocal
  `1 / c` computed once, the other divides the sum by `c`. On the extended reals the quotient `x / y` of a
  nonzero `y` IS `x · y⁻¹`, at the infinities too, and `c ≥ 1` is never zero; so
      x · (1 / c) = x · (1 · c⁻¹) = x · c⁻¹ = x / c
  for every extended real `x`, with no finiteness asked. The array statements read both sides at an index:
  a vector spread as a column over every lane reads, at (r, k), the vector at r.
-/
import Idealize.ShloMosaic.PureOps.Ideal
import Idealize.ShloMosaic.Lib.IdealHost
import Idealize.ShloMosaic.Lib.Pipeline.Value
import Idealize.ShloMosaic.Lib.ValueIdx

noncomputable section

namespace Cert.Bridge

open Idealize.ShloMosaic

/-- `x · (1 / max(1, d)) = x / max(1, d)` on the extended reals: the divisor is at least one, hence not zero, and
    division by a nonzero extended real is multiplication by its inverse. -/
theorem mul_inv_clip (x d : EReal) : x * Ideal.div 1 (max 1 d) = Ideal.div x (max 1 d) := by
  have h : max (1 : EReal) d ≠ 0 := ne_of_gt (lt_of_lt_of_le zero_lt_one (le_max_left _ _))
  unfold Ideal.div
  rw [if_neg h, if_neg h, one_mul]

/-- A length-`n` vector laid out as a column `[n, 1]` and spread over `c` lanes reads, at `(r, k)`, the vector at `r`. -/
theorem column_spread_apply {α : Type} {n c : ℕ} (x : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (i : (⟨2, ![n, c]⟩ : Shape).Idx) :
    broadcastInDim ⟨2, ![n, c]⟩ ![0, 1] h2 (broadcastInDim ⟨2, ![n, 1]⟩ ![0] h1 x) i = x (ValueIdx.ix1 (i 0)) := by
  have hr : (i 0).val < n := (i 0).isLt
  refine (broadcastInDim_apply ![0, 1] h2 _ i (ValueIdx.ix2 (i 0) (0 : Fin 1)) fun a => ?_).trans ?_
  · match a with
    | ⟨0, _⟩ =>
      show (i 0).val = if n = 1 then 0 else (i 0).val
      split
      · omega
      · rfl
    | ⟨1, _⟩ => rfl
  · refine broadcastInDim_apply ![0] h1 x _ (ValueIdx.ix1 (i 0)) fun a => ?_
    match a with
    | ⟨0, _⟩ =>
      show (i 0).val = if n = 1 then 0 else (i 0).val
      split
      · omega
      · rfl

/-- A scalar spread over a vector reads the scalar everywhere. -/
theorem splat_apply {α : Type} {n : ℕ} (x : (⟨0, ![]⟩ : Shape).Idx → α)
    (h : (⟨0, ![]⟩ : Shape).BroadcastsInDim ⟨1, ![n]⟩ ![]) (i : (⟨1, ![n]⟩ : Shape).Idx) :
    broadcastInDim ⟨1, ![n]⟩ ![] h x i = x ValueIdx.ix0 :=
  broadcastInDim_apply ![] h x i ValueIdx.ix0 fun a => a.elim0

/-- The neighbour sums times the reciprocal of the clipped degree are the neighbour sums divided by the clipped
    degree: the two programs' mean over the neighbours, as arrays (`one₁`, `one₂`: the all-ones vectors the reciprocal's
    numerator and the clip are written with). -/
theorem mean_eq {n c : ℕ} (S : FVec Ideal ⟨2, ![n, c]⟩ .f32) (d one₁ one₂ : FVec Ideal ⟨1, ![n]⟩ .f32)
    (hone₁ : ∀ i, one₁ i = 1) (hone₂ : ∀ i, one₂ i = 1)
    (h1 h1' : (⟨1, ![n]⟩ : Shape).BroadcastsInDim ⟨2, ![n, 1]⟩ ![0])
    (h2 h2' : (⟨2, ![n, 1]⟩ : Shape).BroadcastsInDim ⟨2, ![n, c]⟩ ![0, 1]) :
    mulf S (broadcastInDim ⟨2, ![n, c]⟩ ![0, 1] h2 (broadcastInDim ⟨2, ![n, 1]⟩ ![0] h1 (Host.divf one₁ (maximumf one₂ d))))
      = Host.divf S (broadcastInDim ⟨2, ![n, c]⟩ ![0, 1] h2' (broadcastInDim ⟨2, ![n, 1]⟩ ![0] h1' (maximumf one₂ d))) := by
  funext i
  show S i * _ = Ideal.div (S i) _
  rw [column_spread_apply, column_spread_apply]
  show S i * Ideal.div (one₁ _) (max (one₂ _) (d _)) = Ideal.div (S i) (max (one₂ _) (d _))
  rw [hone₁, hone₂]
  exact mul_inv_clip _ _

/-- A bias vector re-laid as a `[1, c]` row by a shape cast is the same row a broadcast along axis 1 makes: both
    read, at `(0, k)`, the vector at `k`. -/
theorem row_cast_eq {α : Type} {c : ℕ} (b : (⟨1, ![c]⟩ : Shape).Idx → α)
    (hs : (⟨1, ![c]⟩ : Shape).ShapeCasts ⟨2, ![1, c]⟩) (hb : (⟨1, ![c]⟩ : Shape).BroadcastsInDim ⟨2, ![1, c]⟩ ![1]) :
    shapeCast ⟨2, ![1, c]⟩ b hs = broadcastInDim ⟨2, ![1, c]⟩ ![1] hb b := by
  funext i
  have h0 : (i 0).val = 0 := by have h0' : (i 0).val < 1 := (i 0).isLt; omega
  have hk : (i 1).val < c := (i 1).isLt
  refine (shapeCast_apply b hs i (ValueIdx.ix1 (i 1)) ?_).trans (broadcastInDim_apply ![1] hb b i (ValueIdx.ix1 (i 1)) fun a => ?_).symm
  · rw [Shape.rowMajor_val_one, Shape.rowMajor_val_two]
    show (i 1).val = (i 0).val * c + (i 1).val
    rw [h0, Nat.zero_mul, Nat.zero_add]
  · match a with
    | ⟨0, _⟩ =>
      show (i 1).val = if c = 1 then 0 else (i 1).val
      split
      · omega
      · rfl

end Cert.Bridge

end
-- ==== Proof.RefEqual.lean ====
/-
  The kernel program's results and the reference's, as functions of the same argument arrays, are the same functions.

  Both compose the host's operations in the same order: the in-degrees by a scatter-add of ones, the neighbour sums by a
  gather and a scatter-add, three combine steps, the decoder, and the row-wise inner products of picked embedding rows.
  They differ in three spellings, each an identity on extended reals:
    * the mean over a node's neighbours — the sums times 1 / max(1, deg) on one side, the sums divided by max(1, deg) on
      the other: x · (1 / c) = x / c for c ≥ 1;
    * a narrowing of an array to bf16, which on extended reals changes nothing;
    * a bias vector laid out as a 1 × c row by a reshape on one side and by a broadcast on the other.
  The reference recomputes the degree, the clip and the wrapped source indices in every layer under fresh names; each
  copy is the same term. The comparison goes one layer at a time, the previous layer's result entering the next layer's
  comparison as one array variable.
-/
import proofs.«148430_j64776696758992_1_alg».proof.Proof.KernelSpec
import proofs.«148430_j64776696758992_1_alg».proof.Proof.MeanScale
import proofs.«148430_j64776696758992_1_alg».proof.Proof.Gen.ReferenceIdeal.Read
import Idealize.ShloMosaic.Lib.IdealHost
import Idealize.ShloMosaic.Lib.ValueIdx
import Idealize.ShloMosaic.Lib.Pipeline.Value

noncomputable section
namespace Cert.Bridge.RefEqual
open Idealize.ShloMosaic Cert.ReferenceIdeal Cert.ReferenceIdeal.Facts₀ Cert.ReferenceIdeal.Facts Cert.ReferenceIdeal.Read

/-- On extended reals the narrowing to bf16 changes nothing. -/
theorem narrow_id {s : Shape} (a : FVec Ideal s .f32) (h : FTy.bits .bf16 < FTy.bits .f32) :
    (truncf .bf16 a h : FVec Ideal s .bf16) = a := funext fun _ => rfl

/-- The all-ones vector the reciprocal's numerator is written with. -/
theorem ones_num (i : Cert.KernelIdeal.S100000.Idx) :
    broadcastInDim Cert.KernelIdeal.S100000 ![] Cert.KernelIdeal.Facts₀.bcast_S_S100000
      (constant (F := Ideal) Cert.KernelIdeal.S_ .f32 0x3F800000#32) i = 1 := by
  refine (Cert.Bridge.splat_apply _ _ i).trans ?_
  rw [ValueIdx.constant_apply, Ideal.ofBits_one_f32]

/-- The all-ones vector the clip is written with. -/
theorem ones_clip (i : Cert.KernelIdeal.S100000.Idx) :
    broadcastInDim Cert.KernelIdeal.S100000 ![] Cert.KernelIdeal.Facts₀.bcast_S_S100000
      (id (constant (F := Ideal) Cert.KernelIdeal.S_ .f32 0x3F800000#32)) i = 1 := by
  refine (Cert.Bridge.splat_apply _ _ i).trans ?_
  show constant (F := Ideal) Cert.KernelIdeal.S_ .f32 0x3F800000#32 ValueIdx.ix0 = 1
  rw [ValueIdx.constant_apply, Ideal.ofBits_one_f32]

/-- The mean over the neighbours of a 64-feature array: the neighbour sums times the reciprocal of the clipped degree
    are the neighbour sums divided by the clipped degree. -/
theorem agg64_eq (f : (⟨S100000x64, .f32⟩ : BufTy).Contents (Elt Ideal)) (x1 : (⟨S2x1600000, .i32⟩ : BufTy).Contents (Elt Ideal)) :
    Cert.KernelIdeal.Spec.agg64 f x1
      = Host.divf (Host.scatterAdd scatter_S100000x64_S1600000x1_S1600000x64_1_0_0_1 (val_main_v15 (F := Ideal))
          (val_main_v16 (F := Ideal) x1)
          (Host.gather gather_S100000x64_S1600000x1_S1600000x64_1_0_n_n_0_1_164 f (val_main_v13 (F := Ideal) x1)))
        (val_main_v20 (F := Ideal) x1) := by
  unfold Cert.KernelIdeal.Spec.agg64 Cert.KernelIdeal.Spec.dinv Cert.KernelIdeal.Spec.clip
  exact Cert.Bridge.mean_eq _ (Cert.KernelIdeal.Spec.deg x1) _ _ ones_num ones_clip _ _ _ _

variable (x0 : (⟨S100000x64, .f32⟩ : BufTy).Contents (Elt Ideal)) (x1 : (⟨S2x1600000, .i32⟩ : BufTy).Contents (Elt Ideal))
  (x2 : (⟨S2x100000, .i32⟩ : BufTy).Contents (Elt Ideal)) (x3 x4 : (⟨S128x64, .f32⟩ : BufTy).Contents (Elt Ideal)) (x5 : (⟨S128, .f32⟩ : BufTy).Contents (Elt Ideal))
  (x6 x7 : (⟨S128x128, .f32⟩ : BufTy).Contents (Elt Ideal)) (x8 : (⟨S128, .f32⟩ : BufTy).Contents (Elt Ideal)) (x9 x10 : (⟨S64x128, .f32⟩ : BufTy).Contents (Elt Ideal)) (x11 : (⟨S64, .f32⟩ : BufTy).Contents (Elt Ideal))
  (x12 : (⟨S128x64, .f32⟩ : BufTy).Contents (Elt Ideal)) (x13 : (⟨S128, .f32⟩ : BufTy).Contents (Elt Ideal)) (x14 : (⟨S64x128, .f32⟩ : BufTy).Contents (Elt Ideal)) (x15 : (⟨S64, .f32⟩ : BufTy).Contents (Elt Ideal))

/-- The first layer: the same combine step on the same operands, the mean over the neighbours written as a division
    and the bias laid out as a row by a broadcast. -/
theorem h1_eq : Cert.KernelIdeal.Spec.h1 x0 x1 x3 x4 x5 = val_main_v30 (F := Ideal) x0 x1 x3 x4 x5 := by
  unfold Cert.KernelIdeal.Spec.h1 Cert.Bridge.layer0
  rw [agg64_eq]
  rw [Cert.Bridge.row_cast_eq x5 _ bcast_S128_S1x128_1]
  simp only [narrow_id]
  unfold val_main_v30 val_main_v29 val_main_v26 val_main_v23 val_main_v25 val_main_v28 val_main_v27 val_main_v21 val_main_v17 val_main_v14 val_main_v22 val_main_v24 val_main_call1_v0 val_main_call1_cst Cert.Bridge.zeros128
  rfl

/-- The mean over the neighbours of a 128-feature array, with the second layer's names for the edge-list terms. -/
theorem agg128_eq₁ (H : (⟨S100000x128, .f32⟩ : BufTy).Contents (Elt Ideal)) :
    Cert.KernelIdeal.Spec.agg128 H x1
      = Host.divf (Host.scatterAdd scatter_S100000x128_S1600000x1_S1600000x128_1_0_0_1 (val_main_v42 (F := Ideal))
          (val_main_v43 (F := Ideal) x1)
          (Host.gather gather_S100000x128_S1600000x1_S1600000x128_1_0_n_n_0_1_1128 H (val_main_v40 (F := Ideal) x1)))
        (val_main_v47 (F := Ideal) x1) := by
  unfold Cert.KernelIdeal.Spec.agg128 Cert.KernelIdeal.Spec.dinv Cert.KernelIdeal.Spec.clip
  exact Cert.Bridge.mean_eq _ (Cert.KernelIdeal.Spec.deg x1) _ _ ones_num ones_clip _ _ _ _

/-- The same mean, with the third layer's names for the edge-list terms. -/
theorem agg128_eq₂ (H : (⟨S100000x128, .f32⟩ : BufTy).Contents (Elt Ideal)) :
    Cert.KernelIdeal.Spec.agg128 H x1
      = Host.divf (Host.scatterAdd scatter_S100000x128_S1600000x1_S1600000x128_1_0_0_1 (val_main_v69 (F := Ideal))
          (val_main_v70 (F := Ideal) x1)
          (Host.gather gather_S100000x128_S1600000x1_S1600000x128_1_0_n_n_0_1_1128 H (val_main_v67 (F := Ideal) x1)))
        (val_main_v74 (F := Ideal) x1) := by
  unfold Cert.KernelIdeal.Spec.agg128 Cert.KernelIdeal.Spec.dinv Cert.KernelIdeal.Spec.clip
  exact Cert.Bridge.mean_eq _ (Cert.KernelIdeal.Spec.deg x1) _ _ ones_num ones_clip _ _ _ _

/-- The second layer, on the first layer's result. -/
theorem h2_eq : Cert.KernelIdeal.Spec.h2 x0 x1 x3 x4 x5 x6 x7 x8 = val_main_v57 (F := Ideal) x0 x1 x3 x4 x5 x6 x7 x8 := by
  unfold Cert.KernelIdeal.Spec.h2 Cert.Bridge.layer1
  rw [h1_eq]
  unfold val_main_v57 val_main_v56 val_main_v53 val_main_v50 val_main_v52 val_main_v55 val_main_v54 val_main_v48 val_main_v44 val_main_v41 val_main_v49 val_main_v51 val_main_call3_v0 val_main_call3_cst Cert.Bridge.zeros128
  generalize val_main_v30 (F := Ideal) x0 x1 x3 x4 x5 = H
  rw [agg128_eq₁]
  rw [Cert.Bridge.row_cast_eq x8 _ bcast_S128_S1x128_1]
  simp only [narrow_id]

/-- The third layer (no rectifier), on the second layer's result. -/
theorem emb_eq : Cert.KernelIdeal.Spec.emb x0 x1 x3 x4 x5 x6 x7 x8 x9 x10 x11
    = val_main_v83 (F := Ideal) x0 x1 x3 x4 x5 x6 x7 x8 x9 x10 x11 := by
  unfold Cert.KernelIdeal.Spec.emb Cert.Bridge.layer2
  rw [h2_eq]
  unfold val_main_v83 val_main_v80 val_main_v77 val_main_v79 val_main_v82 val_main_v81 val_main_v75 val_main_v71 val_main_v68 val_main_v76 val_main_v78
  generalize val_main_v57 (F := Ideal) x0 x1 x3 x4 x5 x6 x7 x8 = H
  rw [agg128_eq₂]
  rw [Cert.Bridge.row_cast_eq x11 _ bcast_S64_S1x64_1]
  simp only [narrow_id]

/-- The decoder, on the embeddings. -/
theorem rec_eq : Cert.KernelIdeal.Spec.dec (Cert.KernelIdeal.Spec.emb x0 x1 x3 x4 x5 x6 x7 x8 x9 x10 x11) x12 x13 x14 x15
    = val_main_v94 (F := Ideal) x0 x1 x3 x4 x5 x6 x7 x8 x9 x10 x11 x12 x13 x14 x15 := by
  unfold Cert.KernelIdeal.Spec.dec Cert.Bridge.mlp
  rw [emb_eq]
  unfold val_main_v94 val_main_v91 val_main_v93 val_main_v92 val_main_v89 val_main_v88 val_main_v85 val_main_v87 val_main_v86 val_main_v84 val_main_v90 val_main_call5_v0 val_main_call5_cst Cert.Bridge.zeros128
  generalize val_main_v83 (F := Ideal) x0 x1 x3 x4 x5 x6 x7 x8 x9 x10 x11 = E
  rw [Cert.Bridge.row_cast_eq x13 _ bcast_S128_S1x128_1]
  rw [Cert.Bridge.row_cast_eq x15 _ bcast_S64_S1x64_1]
  simp only [narrow_id]

/-- The column of scores flattened is the host's reduction: entry i of the flat array is entry (i, 0) of the column. -/
theorem flat_col (GS GD : FVec Ideal S100000x64 .f32) (h : Cert.KernelIdeal.S100000x1.ShapeCasts Cert.KernelIdeal.S100000) :
    shapeCast Cert.KernelIdeal.S100000 (Cert.Bridge.scoreCol GS GD) h = Cert.Bridge.score GS GD := by
  funext i
  refine (shapeCast_apply _ h i (ValueIdx.ix2 (i 0) (0 : Fin 1)) ?_).trans ?_
  · rw [Shape.rowMajor_val_two, Shape.rowMajor_val_one]
    show (i 0).val * 1 + 0 = (i 0).val
    omega
  · unfold Cert.Bridge.scoreCol
    exact congrArg (Cert.Bridge.score GS GD) (funext fun a => Fin.ext (by match a with | ⟨0, _⟩ => rfl))

/-- The edge scores, on the embeddings: the same rows picked, multiplied and summed. -/
theorem scores_eq : Cert.KernelIdeal.Spec.scores (Cert.KernelIdeal.Spec.emb x0 x1 x3 x4 x5 x6 x7 x8 x9 x10 x11) x2
    = val_main_v114 (F := Ideal) x0 x1 x2 x3 x4 x5 x6 x7 x8 x9 x10 x11 := by
  unfold Cert.KernelIdeal.Spec.scores
  rw [emb_eq]
  unfold val_main_v114 val_main_v113 val_main_v103 val_main_v112 val_main_cst_20
  generalize val_main_v83 (F := Ideal) x0 x1 x3 x4 x5 x6 x7 x8 x9 x10 x11 = E
  rw [flat_col]
  unfold Cert.Bridge.score Cert.KernelIdeal.Spec.rows
  rfl

end Cert.Bridge.RefEqual
end
-- ==== Proof.lean ====
/-
  The proof of `Cert.Claim`: a three-layer GraphSAGE encoder with a feature decoder and an edge scorer, written
  once as tiled TPU kernels among host operations and once as plain array code, computes the same three arrays
  when floats are read as extended reals (operations exact, format changes the identity).

  WHAT BOTH PROGRAMS COMPUTE. For N = 100000 nodes with 64 features x, an edge list e and sampled node pairs s:
      deg[v] = the number of edges into v,   c[v] = max(1, deg[v]),
      agg(f)[v, ·] = (the sum of f[u, ·] over the edges u → v), averaged over c[v],
      h1 = max(agg(x)·Wl0ᵀ + x·Wr0ᵀ + b0, 0),   h2 = max(agg(h1)·Wl1ᵀ + h1·Wr1ᵀ + b1, 0),
      emb = agg(h2)·Wl2ᵀ + h2·Wr2ᵀ + b2                                  (the first result),
      rec = max(emb·Wd1ᵀ + bd1, 0)·Wd2ᵀ + bd2                            (the second result),
      scores[i] = Σ_k emb[s0[i], k] · emb[s1[i], k]                       (the third result).
  The gathers and scatter-adds that build the neighbour sums and pick the sampled rows are the same host
  operations in both programs.

  WHERE THEY DIFFER, and why it does not matter at the extended reals.
  * The kernel program computes each combine step, the decoder and the edge score 2000 rows at a time, over 50
    grid points; the reference computes all 100000 rows at once. A row of a matrix product depends on that row
    of the left factor only, and a row-wise inner product on that row of its two factors only, so the 50 row
    blocks are the rows of the whole-array function, and together they fill the array.
  * For the mean the kernel program multiplies the neighbour sum by the reciprocal 1 / c[v] computed once, where
    the reference divides by c[v]. On the extended reals x · (1 / c) = x / c for every x whenever c is not zero,
    the infinities included, and c = max(1, deg) ≥ 1 never is.
  * The kernel program narrows the tiled regions' operands to bf16 and lays each bias out as a 1 × n row; at the
    extended reals a format change is the identity, and the row read at (0, j) is the bias at j.

  WHICH MODULE PROVES WHICH STEP.
  * `Layers`: the five whole-array functions the comparison is cut along — the three combine steps, the decoder,
    the edge score — in the host's own operations.
  * `Region0`, `Region1`, `Region2`: the output array of each tiled combine region is its layer of the region's
    five input arrays; `Region3`: the decoder region's output is the decoder of its inputs; `Region4`: the score
    region's output is the row-wise inner products of its two gathered inputs.
  * `KernelSpec`: the kernel program's three results written as functions `emb`, `dec`, `scores` of the argument
    arrays. `KernelRun`: every fair execution of the kernel program terminates without a fault, its three result
    buffers at the contents the last boundary between its segments names, its arguments as launched.
  * `Walk0` … `Walk4`: what each buffer holds at each boundary between the program's thirteen segments, from the
    launch to the return, as a function of the arguments; `Walk4` ends at the three result buffers holding
    `emb`, `dec (emb)`, `scores (emb)` of the arguments.
  * `MeanScale`: x · (1 / c) = x / c for c ≥ 1 on the extended reals, and the two bias layouts read at an index.
  * `RefEqual`: `emb`, `dec (emb)` and `scores (emb)` are the reference's three result terms of the same arguments.
  * The generated modules under `Gen/`: the frame runs of the two kernel programs, and the reference's run with its
    result terms named.
  Below: the five conjuncts of the claim, assembled from these.
-/
import proofs.«148430_j64776696758992_1_alg».proof.Defs
import proofs.«148430_j64776696758992_1_alg».proof.Proof.Gen.Kernel
import proofs.«148430_j64776696758992_1_alg».proof.Proof.Gen.Kernel.Skeleton
import proofs.«148430_j64776696758992_1_alg».proof.Proof.Gen.Kernel.Launch
import proofs.«148430_j64776696758992_1_alg».proof.Proof.Gen.Kernel.Points
import proofs.«148430_j64776696758992_1_alg».proof.Proof.Gen.Kernel.Frame
import proofs.«148430_j64776696758992_1_alg».proof.Proof.Gen.KernelIdeal
import proofs.«148430_j64776696758992_1_alg».proof.Proof.Gen.KernelIdeal.Skeleton
import proofs.«148430_j64776696758992_1_alg».proof.Proof.Gen.KernelIdeal.Launch
import proofs.«148430_j64776696758992_1_alg».proof.Proof.Gen.KernelIdeal.Points
import proofs.«148430_j64776696758992_1_alg».proof.Proof.Gen.KernelIdeal.Frame
import proofs.«148430_j64776696758992_1_alg».proof.Proof.Gen.ReferenceIdeal
import proofs.«148430_j64776696758992_1_alg».proof.Proof.Gen.ReferenceIdeal.Run
import proofs.«148430_j64776696758992_1_alg».proof.Proof.Gen.ReferenceIdeal.Read
import proofs.«148430_j64776696758992_1_alg».proof.Proof.Gen.Pre_finite_inputs
import proofs.«148430_j64776696758992_1_alg».proof.Proof.KernelRun
import proofs.«148430_j64776696758992_1_alg».proof.Proof.KernelSpec
import proofs.«148430_j64776696758992_1_alg».proof.Proof.Walk4
import proofs.«148430_j64776696758992_1_alg».proof.Proof.RefEqual
import Idealize.ShloMosaic.Adequacy
import Idealize.ShloMosaic.Init

noncomputable section

open Idealize.ShloMosaic Idealize.ShloMosaic.TcCoe Idealize.SL.Sem

namespace Cert.Proof

/-- The kernel program as printed, at the bit-exact values: every fair execution terminates without a fault and the
    sixteen argument arrays end unchanged. -/
theorem frame_k : Cert.frame_Kernel := fun m ρ _ => Cert.Kernel.Gen.frame m ρ

/-- The same program read at the extended reals: it terminates without a fault, its arguments unchanged. -/
theorem frame_ki : Cert.frame_KernelIdeal := fun m ρ _ => Cert.KernelIdeal.Gen.frame m ρ

/-- The reference at the extended reals terminates without a fault with its arguments unchanged: its run names the
    three results first and then the sixteen arguments, and only the arguments are asked here. -/
theorem frame_ri : Cert.frame_ReferenceIdeal := fun m ρ _ =>
  (θ_run Cert.ReferenceIdeal.defs _ _).mono (fun _ h c => (h c).2.2.2) (Cert.ReferenceIdeal.Value.run (F := Ideal) m ρ)

/-- Reading the kernel program at the extended reals rewrote none of its operations, so there is nothing to
    preserve: the statement is `True`. -/
theorem preserves : Cert.preserves_Kernel_KernelIdeal := trivial

/-- At the extended reals, from memories that agree on the sixteen arguments, both programs run, end with the same
    three result arrays — the embeddings, the decoded features, the edge scores — and leave their arguments
    unchanged. The common value of each result is what the kernel program's last boundary holds there: it is
    `emb`, `dec (emb)`, `scores (emb)` of the kernel's arguments (`Walk4`), which are the reference's result terms
    of the same arrays (`RefEqual`), and the reference's arguments are the kernel's (`hagree`). -/
theorem algebraic : Cert.algebraic_KernelIdeal_ReferenceIdeal := by
  intro m ρ m' ρ' _ hagree
  refine ⟨fun c => Cert.KernelIdeal.Gen.W13 (F := Ideal) m ρ c (Proc.devRef .tc Cert.KernelIdeal.main_v73), fun c => Cert.KernelIdeal.Gen.W13 (F := Ideal) m ρ c (Proc.devRef .tc Cert.KernelIdeal.main_v81), fun c => Cert.KernelIdeal.Gen.W13 (F := Ideal) m ρ c (Proc.devRef .tc Cert.KernelIdeal.main_v101),
    Cert.KernelIdeal.Results.run (F := Ideal) m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7, a8, a9, a10, a11, a12, a13, a14, a15⟩ := hagree c
    rw [Cert.ReferenceIdeal.Read.val_main_v83_eq, a0, a1, a3, a4, a5, a6, a7, a8, a9, a10, a11]
    exact ((Cert.KernelIdeal.Walk.W13_v73 m ρ c).trans (Cert.Bridge.RefEqual.emb_eq _ _ _ _ _ _ _ _ _ _ _)).symm
  · obtain ⟨a0, a1, a2, a3, a4, a5, a6, a7, a8, a9, a10, a11, a12, a13, a14, a15⟩ := hagree c
    rw [Cert.ReferenceIdeal.Read.val_main_v94_eq, a0, a1, a3, a4, a5, a6, a7, a8, a9, a10, a11, a12, a13, a14, a15]
    exact ((Cert.KernelIdeal.Walk.W13_v81 m ρ c).trans (Cert.Bridge.RefEqual.rec_eq _ _ _ _ _ _ _ _ _ _ _ _ _ _ _)).symm
  · obtain ⟨a0, a1, a2, a3, a4, a5, a6, a7, a8, a9, a10, a11, a12, a13, a14, a15⟩ := hagree c
    rw [Cert.ReferenceIdeal.Read.val_main_v114_eq, a0, a1, a2, a3, a4, a5, a6, a7, a8, a9, a10, a11]
    exact ((Cert.KernelIdeal.Walk.W13_v101 m ρ c).trans (Cert.Bridge.RefEqual.scores_eq _ _ _ _ _ _ _ _ _ _ _ _)).symm

/-- Everything the certificate claims, under the facts the three programs and the precondition state. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
